-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10x10x128 : Shape := ⟨3, ![10, 10, 128]⟩
abbrev S500000x128 : Shape := ⟨2, ![500000, 128]⟩
abbrev S500000 : Shape := ⟨1, ![500000]⟩
abbrev S_ : Shape := ⟨0, ![]⟩

class Facts : Prop where
  bcast_S_S10x10x128 : S_.BroadcastsInDim S10x10x128 (![] : Fin 0 → Fin S10x10x128.rank)
  reducesTo_S10x10x128_S_d0_1_2 : S10x10x128.ReducesTo [0, 1, 2] S_
  h_S_ : 0 < S_.numel
  bcast_S_S500000x128 : S_.BroadcastsInDim S500000x128 (![] : Fin 0 → Fin S500000x128.rank)
  reducesTo_S500000x128_S_d0_1 : S500000x128.ReducesTo [0, 1] S_

variable [Facts]

def fn {F : FTy → Type} [FloatOps F] (main_arg0 : FVec F S10x10x128 .f32) (main_arg1 : FVec F S500000x128 .f32) (main_arg2 : IVec S500000 32) : IVec S_ 1 :=
  let main_v0 : FVec F S10x10x128 .f32 := Host.absf main_arg0
  let main_cst : FVec F S_ .f32 := constant S_ .f32 0x7F800000#32
  let main_v1 : FVec F S10x10x128 .f32 := broadcastInDim S10x10x128 ![] bcast_S_S10x10x128 main_cst
  let main_v2 : IVec S10x10x128 1 := cmpf .olt main_v0 main_v1
  let main_c : IVec S_ 1 := constantI S_ 1 1#1
  let main_v3 : IVec S_ 1 := (fun x v => Host.reduce IntOp.andi x v reducesTo_S10x10x128_S_d0_1_2 h_S_) main_v2 main_c
  let main_v4 : FVec F S500000x128 .f32 := Host.absf main_arg1
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  main_v8
-- ==== Kernel.lean ====
abbrev S10x10x128 : Shape := ⟨3, ![10, 10, 128]⟩
abbrev S500000x128 : Shape := ⟨2, ![500000, 128]⟩
abbrev S500000 : Shape := ⟨1, ![500000]⟩
abbrev S10x10x10 : Shape := ⟨3, ![10, 10, 10]⟩
abbrev S_ : Shape := ⟨0, ![]⟩
abbrev S100x128 : Shape := ⟨2, ![100, 128]⟩
abbrev S500100x128 : Shape := ⟨2, ![500100, 128]⟩
abbrev S1x500000 : Shape := ⟨2, ![1, 500000]⟩
abbrev S100x500000 : Shape := ⟨2, ![100, 500000]⟩
abbrev S10240x128 : Shape := ⟨2, ![10240, 128]⟩
abbrev S1x10240 : Shape := ⟨2, ![1, 10240]⟩
abbrev S100x10240 : Shape := ⟨2, ![100, 10240]⟩
abbrev S100x1 : Shape := ⟨2, ![100, 1]⟩
abbrev S10x10x500000 : Shape := ⟨3, ![10, 10, 500000]⟩

abbrev nBuf : Space → Nat
  | .hbm => 25
  | .vmem => 7
  | .smem => 0
  | _ => 0

abbrev bufTy : (tb : Table) → Fin (tcTables nBuf tb) → BufTy
  | .hbm, ⟨0, _⟩ => ⟨S10x10x128, .f32⟩
  | .hbm, ⟨1, _⟩ => ⟨S500000x128, .f32⟩
  | .hbm, ⟨2, _⟩ => ⟨S500000, .i32⟩
  | .hbm, ⟨3, _⟩ => ⟨S10x10x10, .f32⟩
  | .hbm, ⟨4, _⟩ => ⟨S10x10x10, .f32⟩
  | .hbm, ⟨5, _⟩ => ⟨S10x10x10, .f32⟩
  | .hbm, ⟨6, _⟩ => ⟨S_, .f32⟩
  | .hbm, ⟨7, _⟩ => ⟨S10x10x10, .f32⟩
  | .hbm, ⟨8, _⟩ => ⟨S10x10x10, .f32⟩
  | .hbm, ⟨9, _⟩ => ⟨S_, .f32⟩
  | .hbm, ⟨10, _⟩ => ⟨S10x10x10, .f32⟩
  | .hbm, ⟨11, _⟩ => ⟨S10x10x10, .f32⟩
  | .hbm, ⟨12, _⟩ => ⟨S_, .f32⟩
  | .hbm, ⟨13, _⟩ => ⟨S10x10x10, .f32⟩
  | .hbm, ⟨14, _⟩ => ⟨S10x10x10, .i1⟩
  | .hbm, ⟨15, _⟩ => ⟨S_, .f32⟩
  | .hbm, ⟨16, _⟩ => ⟨S_, .f32⟩
  | .hbm, ⟨17, _⟩ => ⟨S10x10x10, .f32⟩
  | .hbm, ⟨18, _⟩ => ⟨S10x10x10, .f32⟩
  | .hbm, ⟨19, _⟩ => ⟨S100x128, .f32⟩
  | .hbm, ⟨20, _⟩ => ⟨S500100x128, .f32⟩
  | .hbm, ⟨21, _⟩ => ⟨S100x128, .bf16⟩
  | .hbm, ⟨22, _⟩ => ⟨S1x500000, .i32⟩
  | .hbm, ⟨23, _⟩ => ⟨S100x500000, .f32⟩
  | .hbm, ⟨24, _⟩ => ⟨S10x10x500000, .f32⟩
  | .local _ .vmem, ⟨0, _⟩ => ⟨S100x128, .bf16⟩
  | .local _ .vmem, ⟨1, _⟩ => ⟨S10240x128, .f32⟩
  | .local _ .vmem, ⟨2, _⟩ => ⟨S10240x128, .f32⟩
  | .local _ .vmem, ⟨3, _⟩ => ⟨S1x10240, .i32⟩
  | .local _ .vmem, ⟨4, _⟩ => ⟨S1x10240, .i32⟩
  | .local _ .vmem, ⟨5, _⟩ => ⟨S100x10240, .f32⟩
  | .local _ .vmem, ⟨6, _⟩ => ⟨S100x10240, .f32⟩
  | _, _ => ⟨S10x10x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S100x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S10240x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x10240 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S100x10240 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S10x10x10 : S_.BroadcastsInDim S10x10x10 (![] : Fin 0 → Fin S10x10x10.rank)
  shapeCasts_S10x10x128_S100x128 : S10x10x128.ShapeCasts S100x128
  concatenates_S100x128_S500000x128_S500100x128_d0 : Shape.Concatenates [S100x128, S500000x128] S500100x128 0
  bitsLt_bf16_f32 : FTy.bits .bf16 < FTy.bits .f32
  shapeCasts_S500000_S1x500000 : S500000.ShapeCasts S1x500000
  inb_S100x128_S100x128_0_0 : ∀ a, (![0, 0] : Fin 2 → Nat) a + S100x128.size a ≤ S100x128.size a
  h_S100x128 : 0 < S100x128.numel
  shapeCasts_S100x128_S100x128 : S100x128.ShapeCasts S100x128
  inb_S10240x128_S10240x128_0_0 : ∀ a, (![0, 0] : Fin 2 → Nat) a + S10240x128.size a ≤ S10240x128.size a
  h_S10240x128 : 0 < S10240x128.numel
  inb_S1x10240_S1x10240_0_0 : ∀ a, (![0, 0] : Fin 2 → Nat) a + S1x10240.size a ≤ S1x10240.size a
  h_S1x10240 : 0 < S1x10240.numel
  shapeCasts_S1x10240_S1x10240 : S1x10240.ShapeCasts S1x10240
  iota_S100x1_d0_w32 : S100x1.Iotas .tc 32 [0]
  natLt_1_32 : 1 < 32
  broadcasts_S100x1_S100x10240 : S100x1.Broadcasts S100x10240
  broadcasts_S1x10240_S100x10240 : S1x10240.Broadcasts S100x10240
  inb_S100x10240_S100x10240_0_0 : ∀ a, (![0, 0] : Fin 2 → Nat) a + S100x10240.size a ≤ S100x10240.size a
  h_S100x10240 : 0 < S100x10240.numel
  shapeCasts_S100x500000_S10x10x500000 : S100x500000.ShapeCasts S10x10x500000
  dot_S10x10x128_S10x10x128_S10x10x10_2_2_1_1_0_0_wf : DotDims.WF S10x10x128 S10x10x128 S10x10x10 [2] [2] [1] [1] [0] [0]
  dot_S100x128_S10240x128_S100x10240_1_1_0_0_n_n_wf : DotDims.WF S100x128 S10240x128 S100x10240 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S100x128.size a ≤ S100x128.size a
  hwx0_0 : ∀ i : grid0.Coords, EltTy.bits .bf16 = 32 ∨ (Rect.block (s := S100x128) S100x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S10240x128.size a < S500000x128.size a
  hwx0_1 : ∀ i : grid0.Coords, EltTy.bits .f32 = 32 ∨ (Rect.unit (s := S500000x128) (fun a => cc0_transform_1 i a * S10240x128.size a) (fun a => (Pipeline.Clip.of (cc0_transform_1 i a) (S10240x128.size a) (S500000x128.size a)).extent (S10240x128.size a)) fun a => Pipeline.Clip.inb (Pipeline.Clip.ok_of (hstart0_1 i a))).WholeWords (EltTy.packing .f32)
  hwxs0_1 : ∀ i : grid0.Coords, EltTy.bits .f32 = 32 ∨ (Rect.unit (s := S10240x128) (fun _ => 0) (fun a => (Pipeline.Clip.of (cc0_transform_1 i a) (S10240x128.size a) (S500000x128.size a)).extent (S10240x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x10240.size a < S1x500000.size a
  hwx0_2 : ∀ i : grid0.Coords, EltTy.bits .i32 = 32 ∨ (Rect.unit (s := S1x500000) (fun a => cc0_transform_2 i a * S1x10240.size a) (fun a => (Pipeline.Clip.of (cc0_transform_2 i a) (S1x10240.size a) (S1x500000.size a)).extent (S1x10240.size a)) fun a => Pipeline.Clip.inb (Pipeline.Clip.ok_of (hstart0_2 i a))).WholeWords (EltTy.packing .i32)
  hwxs0_2 : ∀ i : grid0.Coords, EltTy.bits .i32 = 32 ∨ (Rect.unit (s := S1x10240) (fun _ => 0) (fun a => (Pipeline.Clip.of (cc0_transform_2 i a) (S1x10240.size a) (S1x500000.size a)).extent (S1x10240.size a)) fun a => (Nat.zero_add _).trans_le (Pipeline.Clip.extent_le (Pipeline.Clip.ok_of (hstart0_2 i a)))).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S100x10240.size a < S100x500000.size a
  hwx0_3 : ∀ i : grid0.Coords, EltTy.bits .f32 = 32 ∨ (Rect.unit (s := S100x500000) (fun a => cc0_transform_3 i a * S100x10240.size a) (fun a => (Pipeline.Clip.of (cc0_transform_3 i a) (S100x10240.size a) (S100x500000.size a)).extent (S100x10240.size a)) fun a => Pipeline.Clip.inb (Pipeline.Clip.ok_of (hstart0_3 i a))).WholeWords (EltTy.packing .f32)
  hwxs0_3 : ∀ i : grid0.Coords, EltTy.bits .f32 = 32 ∨ (Rect.unit (s := S100x10240) (fun _ => 0) (fun a => (Pipeline.Clip.of (cc0_transform_3 i a) (S100x10240.size a) (S100x500000.size a)).extent (S100x10240.size a)) fun a => (Nat.zero_add _).trans_le (Pipeline.Clip.extent_le (Pipeline.Clip.ok_of (hstart0_3 i a)))).WholeWords (EltTy.packing .f32)

variable [Facts₀]

def dot_S10x10x128_S10x10x128_S10x10x10_2_2_1_1_0_0 : DotDims S10x10x128 S10x10x128 S10x10x10 where
  lhsContracting := [2]
  rhsContracting := [2]
  lhsNonContracting := [1]
  rhsNonContracting := [1]
  lhsBatch := [0]
  rhsBatch := [0]
  wf := dot_S10x10x128_S10x10x128_S10x10x10_2_2_1_1_0_0_wf
def dot_S100x128_S10240x128_S100x10240_1_1_0_0_n_n : DotDims S100x128 S10240x128 S100x10240 where
  lhsContracting := [1]
  rhsContracting := [1]
  lhsNonContracting := [0]
  rhsNonContracting := [0]
  lhsBatch := []
  rhsBatch := []
  wf := dot_S100x128_S10240x128_S100x10240_1_1_0_0_n_n_wf

abbrev win0_0 : Pipeline.Window sig grid0 :=
  Pipeline.Window.ofSpec (Memref.whole main_v12) S100x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S10240x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v13) S1x10240.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v14) S100x10240.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10x10x128 : Shape := ⟨3, ![10, 10, 128]⟩
abbrev S500000x128 : Shape := ⟨2, ![500000, 128]⟩
abbrev S500000 : Shape := ⟨1, ![500000]⟩
abbrev S10x10x10 : Shape := ⟨3, ![10, 10, 10]⟩
abbrev S_ : Shape := ⟨0, ![]⟩
abbrev S10x10x500000 : Shape := ⟨3, ![10, 10, 500000]⟩
abbrev S1x500000 : Shape := ⟨2, ![1, 500000]⟩
abbrev S10 : Shape := ⟨1, ![10]⟩
abbrev S10x1 : Shape := ⟨2, ![10, 1]⟩
abbrev S10x500000 : Shape := ⟨2, ![10, 500000]⟩
abbrev S10x1x500000 : Shape := ⟨3, ![10, 1, 500000]⟩
abbrev S100x128 : Shape := ⟨2, ![100, 128]⟩
abbrev S500100x128 : Shape := ⟨2, ![500100, 128]⟩

abbrev nBuf : Space → Nat
  | .hbm => 46
  | .vmem => 0
  | .smem => 0
  | _ => 0

abbrev bufTy : (tb : Table) → Fin (tcTables nBuf tb) → BufTy
  | .hbm, ⟨0, _⟩ => ⟨S10x10x128, .f32⟩
  | .hbm, ⟨1, _⟩ => ⟨S500000x128, .f32⟩
  | .hbm, ⟨2, _⟩ => ⟨S500000, .i32⟩
  | .hbm, ⟨3, _⟩ => ⟨S10x10x10, .f32⟩
  | .hbm, ⟨4, _⟩ => ⟨S10x10x10, .f32⟩
  | .hbm, ⟨5, _⟩ => ⟨S10x10x10, .f32⟩
  | .hbm, ⟨6, _⟩ => ⟨S_, .f32⟩
  | .hbm, ⟨7, _⟩ => ⟨S10x10x10, .f32⟩
  | .hbm, ⟨8, _⟩ => ⟨S10x10x10, .f32⟩
  | .hbm, ⟨9, _⟩ => ⟨S_, .f32⟩
  | .hbm, ⟨10, _⟩ => ⟨S10x10x10, .f32⟩
  | .hbm, ⟨11, _⟩ => ⟨S10x10x10, .f32⟩
  | .hbm, ⟨12, _⟩ => ⟨S_, .f32⟩
  | .hbm, ⟨13, _⟩ => ⟨S10x10x10, .f32⟩
  | .hbm, ⟨14, _⟩ => ⟨S10x10x10, .i1⟩
  | .hbm, ⟨15, _⟩ => ⟨S_, .f32⟩
  | .hbm, ⟨16, _⟩ => ⟨S_, .f32⟩
  | .hbm, ⟨17, _⟩ => ⟨S10x10x10, .f32⟩
  | .hbm, ⟨18, _⟩ => ⟨S10x10x10, .f32⟩
  | .hbm, ⟨19, _⟩ => ⟨S10x10x500000, .f32⟩
  | .hbm, ⟨20, _⟩ => ⟨S10x10x500000, .f32⟩
  | .hbm, ⟨21, _⟩ => ⟨S10x10x500000, .f32⟩
  | .hbm, ⟨22, _⟩ => ⟨S_, .f32⟩
  | .hbm, ⟨23, _⟩ => ⟨S10x10x500000, .f32⟩
  | .hbm, ⟨24, _⟩ => ⟨S10x10x500000, .f32⟩
  | .hbm, ⟨25, _⟩ => ⟨S_, .f32⟩
  | .hbm, ⟨26, _⟩ => ⟨S10x10x500000, .f32⟩
  | .hbm, ⟨27, _⟩ => ⟨S10x10x500000, .f32⟩
  | .hbm, ⟨28, _⟩ => ⟨S1x500000, .i32⟩
  | .hbm, ⟨29, _⟩ => ⟨S10, .i32⟩
  | .hbm, ⟨30, _⟩ => ⟨S10x1, .i32⟩
  | .hbm, ⟨31, _⟩ => ⟨S10x500000, .i32⟩
  | .hbm, ⟨32, _⟩ => ⟨S10x500000, .i32⟩
  | .hbm, ⟨33, _⟩ => ⟨S10x500000, .i1⟩
  | .hbm, ⟨34, _⟩ => ⟨S_, .f32⟩
  | .hbm, ⟨35, _⟩ => ⟨S10x10x500000, .f32⟩
  | .hbm, ⟨36, _⟩ => ⟨S10x10x500000, .i1⟩
  | .hbm, ⟨37, _⟩ => ⟨S10x1x500000, .i1⟩
  | .hbm, ⟨38, _⟩ => ⟨S10x10x500000, .i1⟩
  | .hbm, ⟨39, _⟩ => ⟨S10x10x500000, .i1⟩
  | .hbm, ⟨40, _⟩ => ⟨S_, .f32⟩
  | .hbm, ⟨41, _⟩ => ⟨S_, .f32⟩
  | .hbm, ⟨42, _⟩ => ⟨S10x10x500000, .f32⟩
  | .hbm, ⟨43, _⟩ => ⟨S10x10x500000, .f32⟩
  | .hbm, ⟨44, _⟩ => ⟨S100x128, .f32⟩
  | .hbm, ⟨45, _⟩ => ⟨S500100x128, .f32⟩
  | _, _ => ⟨S10x10x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_call1_v0 : Ref sig .tc := ⟨.hbm, 41, rfl⟩
abbrev main_call1_v1 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]

class Facts₀ : Prop where
  bcast_S_S10x10x10 : S_.BroadcastsInDim S10x10x10 (![] : Fin 0 → Fin S10x10x10.rank)
  bcast_S_S10x10x500000 : S_.BroadcastsInDim S10x10x500000 (![] : Fin 0 → Fin S10x10x500000.rank)
  bcast_S500000_S1x500000_1 : S500000.BroadcastsInDim S1x500000 (![1] : Fin 1 → Fin S1x500000.rank)
  bcast_S10_S10x1_0 : S10.BroadcastsInDim S10x1 (![0] : Fin 1 → Fin S10x1.rank)
  bcast_S1x500000_S10x500000_0_1 : S1x500000.BroadcastsInDim S10x500000 (![0, 1] : Fin 2 → Fin S10x500000.rank)
  bcast_S10x1_S10x500000_0_1 : S10x1.BroadcastsInDim S10x500000 (![0, 1] : Fin 2 → Fin S10x500000.rank)
  bcast_S10x500000_S10x1x500000_0_2 : S10x500000.BroadcastsInDim S10x1x500000 (![0, 2] : Fin 2 → Fin S10x1x500000.rank)
  bcast_S10x1x500000_S10x10x500000_0_1_2 : S10x1x500000.BroadcastsInDim S10x10x500000 (![0, 1, 2] : Fin 3 → Fin S10x10x500000.rank)
  shapeCasts_S10x10x128_S100x128 : S10x10x128.ShapeCasts S100x128
  concatenates_S100x128_S500000x128_S500100x128_d0 : Shape.Concatenates [S100x128, S500000x128] S500100x128 0
  dot_S10x10x128_S10x10x128_S10x10x10_2_2_1_1_0_0_wf : DotDims.WF S10x10x128 S10x10x128 S10x10x10 [2] [2] [1] [1] [0] [0]
  dot_S10x10x128_S500000x128_S10x10x500000_2_1_01_0_n_n_wf : DotDims.WF S10x10x128 S500000x128 S10x10x500000 [2] [1] [0, 1] [0] [] []

variable [Facts₀]

def dot_S10x10x128_S10x10x128_S10x10x10_2_2_1_1_0_0 : DotDims S10x10x128 S10x10x128 S10x10x10 where
  lhsContracting := [2]
  rhsContracting := [2]
  lhsNonContracting := [1]
  rhsNonContracting := [1]
  lhsBatch := [0]
  rhsBatch := [0]
  wf := dot_S10x10x128_S10x10x128_S10x10x10_2_2_1_1_0_0_wf
def dot_S10x10x128_S500000x128_S10x10x500000_2_1_01_0_n_n : DotDims S10x10x128 S500000x128 S10x10x500000 where
  lhsContracting := [2]
  rhsContracting := [1]
  lhsNonContracting := [0, 1]
  rhsNonContracting := [0]
  lhsBatch := []
  rhsBatch := []
  wf := dot_S10x10x128_S500000x128_S10x10x500000_2_1_01_0_n_n_wf

class Facts : Prop extends Facts₀ where

variable [Facts]
-- ==== Proof.KBody.lean ====
/-
  The kernel body as one step: on whole staging buffers holding a token block `x0` [100,128], a block of node
  rows `x1` [10240,128] and a block of cluster labels `x2` [1,10240], the body loads the three, computes
  the thresholded, label-masked sigmoid similarity of every token row with every node row, and stores it over
  the whole [100,10240] result buffer; the three input buffers are left as they were.
-/
import proofs.«141159_j49478023250329_2_alg».proof.Proof.Gen.Kernel.Launch
import proofs.«141159_j49478023250329_2_alg».proof.Proof.Gen.Kernel.Skeleton
import proofs.«141159_j49478023250329_2_alg».proof.Proof.Gen.Kernel.Points
import proofs.«141159_j49478023250329_2_alg».proof.Proof.Gen.Kernel.Frame
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangles the body loads and stores through. -/
abbrev rTok : Rect S100x128 := Rect.unit (s := S100x128) ![0, 0] S100x128.size inb_S100x128_S100x128_0_0
abbrev rRows : Rect S10240x128 := Rect.unit (s := S10240x128) ![0, 0] S10240x128.size inb_S10240x128_S10240x128_0_0
abbrev rLab : Rect S1x10240 := Rect.unit (s := S1x10240) ![0, 0] S1x10240.size inb_S1x10240_S1x10240_0_0
abbrev rOut : Rect S100x10240 := Rect.unit (s := S100x10240) ![0, 0] S100x10240.size inb_S100x10240_S100x10240_0_0

/-- What the result buffer holds after the body: its one whole store, over the three loaded blocks. -/
def outBlock (x0 : Vec F S100x128 .bf16) (x1 : Vec F S10240x128 .f32) (x2 : Vec F S1x10240 .i32) : Vec F S100x10240 .f32 :=
  View.canon [⟨rOut, k0_pay1 (View.ld x0 rTok) (View.ld x1 rRows) (View.ld x2 rLab)⟩]

/-- The one store covers the result buffer. -/
theorem cover_out (p0 : Vec F S100x10240 .f32) (y : S100x10240.Idx) :
    ∃ pc ∈ ([⟨rOut, p0⟩] : List (View.Piece (Elt F) S100x10240 .f32)), y ∈ pc.1.set :=
  View.cover_of_tiled [⟨rOut, p0⟩] S100x10240.size (by rfl) y

set_option maxHeartbeats 1000000 in
/-- The body's triple: the three inputs' buffers at `x0`, `x1`, `x2` and the result's at anything run to the
    inputs' as they were and the result's at `outBlock x0 x1 x2`. -/
theorem sound_kernel (c : Dev nD) (E : Set ℕ) (i : grid0.Coords)
    (arg1 : Memref sig .tc .vmem S100x128 .bf16) (harg1 : arg1.IsWhole)
    (arg2 : Memref sig .tc .vmem S10240x128 .f32) (harg2 : arg2.IsWhole)
    (arg3 : Memref sig .tc .vmem S1x10240 .i32) (harg3 : arg3.IsWhole)
    (arg4 : Memref sig .tc .vmem S100x10240 .f32) (harg4 : arg4.IsWhole)
    (x0 : Vec F S100x128 .bf16) (x1 : Vec F S10240x128 .f32) (x2 : Vec F S1x10240 .i32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
              ∗ owns (c : Thread nD τ) arg3 fullShare x2 ∗ owns (c : Thread nD τ) arg4 fullShare (outBlock x0 x1 x2)) -∗ K ⟨⟩))
      ⊢ wp frame (wpE (defs₀ (F := F)) Variants.none c none) E
          (cc0__cross_kernel i arg1 harg1 arg2 harg2 arg3 harg3 arg4 harg4) K := by
  simp only [cc0__cross_kernel_eq_skeleton]; unfold cc0__cross_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

end Cert.Kernel.Hand

end
-- ==== Proof.KData.lean ====
/-
  The proof data of the one pallas_call and its body obligation, for any float type.  The grid has 49 points;
  point t stages the whole token matrix (fetched once), rows 10240·t … of the node features, columns
  10240·t … of the label row, and writes back columns 10240·t … of the result.  The last block overhangs the
  arrays by 1760 rows/columns: there a fetch fills only the leading 8480 rows/columns of the staging buffer
  and the write-back moves only the leading 8480 columns.  So every statement about a staging buffer of the
  three cut windows is made on the moved (leading) part only, the rest being whatever it was.

  Two obligations are proved from the one body triple: one that names what the result buffer's moved part
  holds after each point (given that it depends only on the moved parts of the inputs), and one that says
  nothing of the result buffer at all, which is enough for the arguments ending unchanged.
-/
import proofs.«141159_j49478023250329_2_alg».proof.Proof.Gen.Kernel.Launch
import proofs.«141159_j49478023250329_2_alg».proof.Proof.Gen.Kernel.Skeleton
import proofs.«141159_j49478023250329_2_alg».proof.Proof.Gen.Kernel.Points
import proofs.«141159_j49478023250329_2_alg».proof.Proof.Gen.Kernel.Frame
import proofs.«141159_j49478023250329_2_alg».proof.Proof.KBody
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (o3 : (c : Dev nD) → Fin cfg0.N → S100x10240.Idx → Elt F .f32)

/-! ## The proof data -/

/-- After the body at point `t`: the token buffer at the token matrix; the node-row and label buffers at their
    blocks on the moved part (anything past it); the result buffer at `o3 c t`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (cfg0.win 1).fill (cfg0.grid.coords t) (fun _ => Classical.arbitrary _) (iblk m c 1 t)
    | ⟨2, _⟩ => (cfg0.win 2).fill (cfg0.grid.coords t) (fun _ => Classical.arbitrary _) (iblk m c 2 t)
    | ⟨3, _⟩ => o3 c t
  Φ _ := Pipeline.ΦA spec0 c
  q _ := fullShare
  owed _ := 0

theorem A_eq (c : Dev nD) (w : Fin cfg0.W) : (dats m o3 0 c).A w = V m c (Pipeline.arrRef spec0 w) := by
  dsimp only [dats]

theorem after0 (c : Dev nD) (t : Fin cfg0.N) : (dats m o3 0 c).after 0 t = iblk m c 0 t := by dsimp only [dats]
theorem after1 (c : Dev nD) (t : Fin cfg0.N) : (dats m o3 0 c).after 1 t
    = (cfg0.win 1).fill (cfg0.grid.coords t) (fun _ => Classical.arbitrary _) (iblk m c 1 t) := by dsimp only [dats]
theorem after2 (c : Dev nD) (t : Fin cfg0.N) : (dats m o3 0 c).after 2 t
    = (cfg0.win 2).fill (cfg0.grid.coords t) (fun _ => Classical.arbitrary _) (iblk m c 2 t) := by dsimp only [dats]
theorem after3 (c : Dev nD) (t : Fin cfg0.N) : (dats m o3 0 c).after 3 t = o3 c t := by dsimp only [dats]

/-- The token buffer holds the token matrix at every point. -/
theorem before0 (c : Dev nD) (t : Fin cfg0.N) (d) : (dats m o3 0 c).before 0 t d = iblk m c 0 t :=
  before0_0_of m (dats m o3 0 c) (A_eq m o3 c 0) (after0 m o3 c) t d
/-- The node-row buffer, fetched at every point, holds its block on the moved part and what it held elsewhere. -/
theorem before1 (c : Dev nD) (t : Fin cfg0.N) (d) :
    (dats m o3 0 c).before 1 t d = (cfg0.win 1).fill (cfg0.grid.coords t) d (iblk m c 1 t) :=
  ((dats m o3 0 c).before_fetched 1 t (fetch0_1 t) d).trans (by unfold Dat.fetched Dat.blockOf iblk; rw [A_eq])
/-- The label buffer likewise. -/
theorem before2 (c : Dev nD) (t : Fin cfg0.N) (d) :
    (dats m o3 0 c).before 2 t d = (cfg0.win 2).fill (cfg0.grid.coords t) d (iblk m c 2 t) :=
  ((dats m o3 0 c).before_fetched 2 t (fetch0_2 t) d).trans (by unfold Dat.fetched Dat.blockOf iblk; rw [A_eq])
/-- The result buffer, written back at every point, comes to the body at contents nothing names. -/
theorem before3 (c : Dev nD) (t : Fin cfg0.N) (d) : (dats m o3 0 c).before 3 t d = d :=
  (dats m o3 0 c).before_out_reset 3 rfl t (by
    by_cases h0 : t.val = 0
    · exact .inl h0
    · exact .inr ⟨h0, flush0_3 _⟩) d

/-! ## The body obligation that names the result -/

/-- What the result buffer holds after the body at point `t` if the two cut input buffers held `d1`, `d2` past
    their moved parts. -/
def outAt (c : Dev nD) (t : Fin cfg0.N) (d1 : S10240x128.Idx → Elt F .f32) (d2 : S1x10240.Idx → Elt F .i32) : S100x10240.Idx → Elt F .f32 :=
  outBlock (iblk m c 0 t) ((cfg0.win 1).fill (cfg0.grid.coords t) d1 (iblk m c 1 t))
    ((cfg0.win 2).fill (cfg0.grid.coords t) d2 (iblk m c 2 t))

def bodyPre (c : Dev nD) (t : Fin cfg0.N) : sProp 𝕄 :=
  iprop((dats m o3 0 c).Φ t.castSucc ∗ (dats m o3 0 c).owesAt () t.castSucc
    ∗ (∃ d, owns (c : Thread nD τ) (st0_0 t) fullShare ((dats m o3 0 c).before 0 t d))
    ∗ (∃ d, owns (c : Thread nD τ) (st0_1 t) fullShare ((dats m o3 0 c).before 1 t d))
    ∗ (∃ d, owns (c : Thread nD τ) (st0_2 t) fullShare ((dats m o3 0 c).before 2 t d))
    ∗ (∃ d, owns (c : Thread nD τ) (st0_3 t) fullShare ((dats m o3 0 c).before 3 t d)))

def bodyPost (c : Dev nD) (t : Fin cfg0.N) : sProp 𝕄 :=
  iprop((dats m o3 0 c).Φ t.succ ∗ (dats m o3 0 c).owesAt () t.succ
    ∗ owns (c : Thread nD τ) (st0_0 t) fullShare ((dats m o3 0 c).after 0 t)
    ∗ (∃ d, owns (c : Thread nD τ) (st0_1 t) fullShare ((cfg0.win 1).fill (cfg0.grid.coords t) d ((cfg0.win 1).cut (cfg0.grid.coords t) ((dats m o3 0 c).after 1 t))))
    ∗ (∃ d, owns (c : Thread nD τ) (st0_2 t) fullShare ((cfg0.win 2).fill (cfg0.grid.coords t) d ((cfg0.win 2).cut (cfg0.grid.coords t) ((dats m o3 0 c).after 2 t))))
    ∗ (∃ d, owns (c : Thread nD τ) (st0_3 t) fullShare ((cfg0.win 3).fill (cfg0.grid.coords t) d ((cfg0.win 3).cut (cfg0.grid.coords t) ((dats m o3 0 c).after 3 t)))))

/-- The body at any point, given that the moved part of what it stores is the moved part of `o3 c t`
    whatever lay past the inputs' moved parts. -/
theorem sound_body (c : Dev nD) (t : Fin cfg0.N)
    (hO : ∀ d1 d2, (cfg0.win 3).cut (cfg0.grid.coords t) (outAt m c t d1 d2) = (cfg0.win 3).cut (cfg0.grid.coords t) (o3 c t)) :
    bodyPre m o3 c t ⊢ wp frame (wpE (defs₀ (F := F)) Variants.none c none) Set.univ (bodyAt0 t) (fun _ => bodyPost m o3 c t) := by
  unfold bodyPre bodyPost bodyAt0
  simp only [before0, before1, before2, before3]
  rw [show (dats m o3 0 c).Φ t.succ = (dats m o3 0 c).Φ t.castSucc from rfl,
    show (dats m o3 0 c).owesAt () t.succ = (dats m o3 0 c).owesAt () t.castSucc from rfl,
    after0, after1, after2, after3, Window.cut_fill, Window.cut_fill]
  iintro ⟨HΦ, Ho, ⟨%d0, H0⟩, ⟨%d1, H1⟩, ⟨%d2, H2⟩, ⟨%d3, H3⟩⟩
  iapply (sound_kernel c Set.univ _ _ _ _ _ _ _ _ _ (iblk m c 0 t)
    ((cfg0.win 1).fill (cfg0.grid.coords t) d1 (iblk m c 1 t)) ((cfg0.win 2).fill (cfg0.grid.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexists d1; iexact H1
  isplitl [H2]; · iexists d2; iexact H2
  iexists outAt m c t d1 d2
  rw [← hO d1 d2, Window.fill_cut]
  iexact H3

theorem body_obligation (c : Dev nD)
    (hO : ∀ t d1 d2, (cfg0.win 3).cut (cfg0.grid.coords t) (outAt m c t d1 d2) = (cfg0.win 3).cut (cfg0.grid.coords t) (o3 c t)) :
    BodyObligationLoose (dats (F := F) m o3 0 c) (defs₀ (F := F)) Variants.none () Set.univ := fun t => by
  rw [bigSep_W0, bigSep_W0]
  exact sound_body m o3 c t (hO t)

end Cert.Kernel.Hand

end
-- ==== Proof.KFrame.lean ====
/-
  The frame of the program read at any float type: it runs to the end, nothing faults, and its three arguments end
  as they began.  Nothing is said here of what the result buffer holds: the body is handed it at any contents and
  gives it back at any contents, while the three input buffers come back as they were on the part the fetch
  filled.  The node features are a staged input (never written back); the tokens and the labels are staged only
  through copies made before the call, so they are left alone by the call and by the reshape after it.
-/
import proofs.«141159_j49478023250329_2_alg».proof.Proof.Gen.Kernel.Launch
import proofs.«141159_j49478023250329_2_alg».proof.Proof.Gen.Kernel.Skeleton
import proofs.«141159_j49478023250329_2_alg».proof.Proof.Gen.Kernel.Points
import proofs.«141159_j49478023250329_2_alg».proof.Proof.Gen.Kernel.Frame
import proofs.«141159_j49478023250329_2_alg».proof.Proof.KData
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (o3 : (c : Dev nD) → Fin cfg0.N → S100x10240.Idx → Elt F .f32)

/-- The result window is the one nothing is said about. -/
def fgt3 : Fin 4 → Bool := fun w => w.val == 3

def bodyPreF (c : Dev nD) (t : Fin cfg0.N) : sProp 𝕄 :=
  iprop((dats m o3 0 c).Φ t.castSucc ∗ (dats m o3 0 c).owesAt () t.castSucc
    ∗ (∃ d, owns (c : Thread nD τ) (st0_0 t) fullShare ((dats m o3 0 c).before 0 t d))
    ∗ (∃ d, owns (c : Thread nD τ) (st0_1 t) fullShare ((dats m o3 0 c).before 1 t d))
    ∗ (∃ d, owns (c : Thread nD τ) (st0_2 t) fullShare ((dats m o3 0 c).before 2 t d))
    ∗ (∃ X, owns (c : Thread nD τ) (st0_3 t) fullShare X))

def bodyPostF (c : Dev nD) (t : Fin cfg0.N) : sProp 𝕄 :=
  iprop((dats m o3 0 c).Φ t.succ ∗ (dats m o3 0 c).owesAt () t.succ
    ∗ owns (c : Thread nD τ) (st0_0 t) fullShare ((dats m o3 0 c).after 0 t)
    ∗ (∃ d, owns (c : Thread nD τ) (st0_1 t) fullShare ((cfg0.win 1).fill (cfg0.grid.coords t) d ((cfg0.win 1).cut (cfg0.grid.coords t) ((dats m o3 0 c).after 1 t))))
    ∗ (∃ d, owns (c : Thread nD τ) (st0_2 t) fullShare ((cfg0.win 2).fill (cfg0.grid.coords t) d ((cfg0.win 2).cut (cfg0.grid.coords t) ((dats m o3 0 c).after 2 t))))
    ∗ (∃ X, owns (c : Thread nD τ) (st0_3 t) fullShare X))

theorem sound_bodyF (c : Dev nD) (t : Fin cfg0.N) :
    bodyPreF m o3 c t ⊢ wp frame (wpE (defs₀ (F := F)) Variants.none c none) Set.univ (bodyAt0 t) (fun _ => bodyPostF m o3 c t) := by
  unfold bodyPreF bodyPostF bodyAt0
  simp only [before0, before1, before2]
  rw [show (dats m o3 0 c).Φ t.succ = (dats m o3 0 c).Φ t.castSucc from rfl,
    show (dats m o3 0 c).owesAt () t.succ = (dats m o3 0 c).owesAt () t.castSucc from rfl,
    after0, after1, after2, Window.cut_fill, Window.cut_fill]
  iintro ⟨HΦ, Ho, ⟨%d0, H0⟩, ⟨%d1, H1⟩, ⟨%d2, H2⟩, ⟨%d3, H3⟩⟩
  iapply (sound_kernel c Set.univ _ _ _ _ _ _ _ _ _ (iblk m c 0 t)
    ((cfg0.win 1).fill (cfg0.grid.coords t) d1 (iblk m c 1 t)) ((cfg0.win 2).fill (cfg0.grid.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexists d1; iexact H1
  isplitl [H2]; · iexists d2; iexact H2
  iexists _; iexact H3

theorem body_obligation_forget (c : Dev nD) :
    BodyObligationLoose (dats (F := F) m o3 0 c) (defs₀ (F := F)) Variants.none () Set.univ fgt3 := fun t => by
  rw [bigSep_W0, bigSep_W0]
  exact sound_bodyF m o3 c t

/-- The one line after the call writes only its own result. -/
theorem tail_writes : ∀ ops ∈ ([hostOps1] : List (List (HloOp τ sig (Elt F)))), ∀ op ∈ ops, ∀ b : Ref sig .tc,
    Proc.devRef .tc b ∈ op.writes → b ∈ ({main_v15} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  simp only [StableHlo.reshape_writes, Finset.mem_singleton] at hb
  rw [Finset.mem_singleton]
  by_contra hne
  exact StableHlo.devRef_ne_of_ne hne hb

set_option backward.isDefEq.respectTransparency.types false in
/-- The run, saying nothing of the result window's array nor of the reshape's result. -/
theorem run_forget : θ_run defs (onTc (τ := τ) (main (F := F))) (s₀ m ρ)
    (Pipeline.RDat.FramePostR (cfgs 0) (fun c => (dats m o3 0 c).toRForget fgt3) {main_v15} (V m)) :=
  Pipeline.RDat.θ_run_frame_around_T cfgs (0 : Fin 1) launch0 defs₀ Variants.none (fun c => (dats m o3 0 c).toRForget fgt3) {main_v15} m ρ main
    (hbody := fun c => (body_obligation_forget m o3 c).toRForget)
    (hshare := fun c => ((dats m o3 0 c).toRForget fgt3).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m o3) (hΦ := fun _ _ => rfl)

/-- The result window's unread contents, fixed once (nothing reads them). -/
abbrev oAny : (c : Dev nD) → Fin cfg0.N → S100x10240.Idx → Elt F .f32 := fun _ _ _ => Scalar.ofBits .f32 0#32

/-- THE FRAME: the three arguments end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Finset.mem_sdiff.mpr ⟨Pipeline.mem_restRefs_of main_arg0 (by decide) (by decide), by decide⟩)).trans (V_main_arg0 m c),
     (Eq.mp (congrFun (((dats m oAny 0 c).toRForget fgt3).ArrAt_in 1 rfl _) _) ((h c).1 1)).trans
        ((A_eq m oAny c 1).trans (V_main_arg1 m c)),
     ((h c).2 main_arg2 (Finset.mem_sdiff.mpr ⟨Pipeline.mem_restRefs_of main_arg2 (by decide) (by decide), by decide⟩)).trans (V_main_arg2 m c)⟩)
    (run_forget m ρ oAny)

end Cert.Kernel.Hand

end
-- ==== Proof.KIBody.lean ====
/-
  The kernel body as one step: on whole staging buffers holding a token block `x0` [100,128], a block of node
  rows `x1` [10240,128] and a block of cluster labels `x2` [1,10240], the body loads the three, computes
  the thresholded, label-masked sigmoid similarity of every token row with every node row, and stores it over
  the whole [100,10240] result buffer; the three input buffers are left as they were.
-/
import proofs.«141159_j49478023250329_2_alg».proof.Proof.Gen.KernelIdeal.Launch
import proofs.«141159_j49478023250329_2_alg».proof.Proof.Gen.KernelIdeal.Skeleton
import proofs.«141159_j49478023250329_2_alg».proof.Proof.Gen.KernelIdeal.Points
import proofs.«141159_j49478023250329_2_alg».proof.Proof.Gen.KernelIdeal.Frame
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangles the body loads and stores through. -/
abbrev rTok : Rect S100x128 := Rect.unit (s := S100x128) ![0, 0] S100x128.size inb_S100x128_S100x128_0_0
abbrev rRows : Rect S10240x128 := Rect.unit (s := S10240x128) ![0, 0] S10240x128.size inb_S10240x128_S10240x128_0_0
abbrev rLab : Rect S1x10240 := Rect.unit (s := S1x10240) ![0, 0] S1x10240.size inb_S1x10240_S1x10240_0_0
abbrev rOut : Rect S100x10240 := Rect.unit (s := S100x10240) ![0, 0] S100x10240.size inb_S100x10240_S100x10240_0_0

/-- What the result buffer holds after the body: its one whole store, over the three loaded blocks. -/
def outBlock (x0 : Vec F S100x128 .bf16) (x1 : Vec F S10240x128 .f32) (x2 : Vec F S1x10240 .i32) : Vec F S100x10240 .f32 :=
  View.canon [⟨rOut, k0_pay1 (View.ld x0 rTok) (View.ld x1 rRows) (View.ld x2 rLab)⟩]

/-- The one store covers the result buffer. -/
theorem cover_out (p0 : Vec F S100x10240 .f32) (y : S100x10240.Idx) :
    ∃ pc ∈ ([⟨rOut, p0⟩] : List (View.Piece (Elt F) S100x10240 .f32)), y ∈ pc.1.set :=
  View.cover_of_tiled [⟨rOut, p0⟩] S100x10240.size (by rfl) y

set_option maxHeartbeats 1000000 in
/-- The body's triple: the three inputs' buffers at `x0`, `x1`, `x2` and the result's at anything run to the
    inputs' as they were and the result's at `outBlock x0 x1 x2`. -/
theorem sound_kernel (c : Dev nD) (E : Set ℕ) (i : grid0.Coords)
    (arg1 : Memref sig .tc .vmem S100x128 .bf16) (harg1 : arg1.IsWhole)
    (arg2 : Memref sig .tc .vmem S10240x128 .f32) (harg2 : arg2.IsWhole)
    (arg3 : Memref sig .tc .vmem S1x10240 .i32) (harg3 : arg3.IsWhole)
    (arg4 : Memref sig .tc .vmem S100x10240 .f32) (harg4 : arg4.IsWhole)
    (x0 : Vec F S100x128 .bf16) (x1 : Vec F S10240x128 .f32) (x2 : Vec F S1x10240 .i32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
              ∗ owns (c : Thread nD τ) arg3 fullShare x2 ∗ owns (c : Thread nD τ) arg4 fullShare (outBlock x0 x1 x2)) -∗ K ⟨⟩))
      ⊢ wp frame (wpE (defs₀ (F := F)) Variants.none c none) E
          (cc0__cross_kernel i arg1 harg1 arg2 harg2 arg3 harg3 arg4 harg4) K := by
  simp only [cc0__cross_kernel_eq_skeleton]; unfold cc0__cross_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

end Cert.KernelIdeal.Hand

end
-- ==== Proof.KIData.lean ====
/-
  The proof data of the one pallas_call and its body obligation, for any float type.  The grid has 49 points;
  point t stages the whole token matrix (fetched once), rows 10240·t … of the node features, columns
  10240·t … of the label row, and writes back columns 10240·t … of the result.  The last block overhangs the
  arrays by 1760 rows/columns: there a fetch fills only the leading 8480 rows/columns of the staging buffer
  and the write-back moves only the leading 8480 columns.  So every statement about a staging buffer of the
  three cut windows is made on the moved (leading) part only, the rest being whatever it was.

  Two obligations are proved from the one body triple: one that names what the result buffer's moved part
  holds after each point (given that it depends only on the moved parts of the inputs), and one that says
  nothing of the result buffer at all, which is enough for the arguments ending unchanged.
-/
import proofs.«141159_j49478023250329_2_alg».proof.Proof.Gen.KernelIdeal.Launch
import proofs.«141159_j49478023250329_2_alg».proof.Proof.Gen.KernelIdeal.Skeleton
import proofs.«141159_j49478023250329_2_alg».proof.Proof.Gen.KernelIdeal.Points
import proofs.«141159_j49478023250329_2_alg».proof.Proof.Gen.KernelIdeal.Frame
import proofs.«141159_j49478023250329_2_alg».proof.Proof.KIBody
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (o3 : (c : Dev nD) → Fin cfg0.N → S100x10240.Idx → Elt F .f32)

/-! ## The proof data -/

/-- After the body at point `t`: the token buffer at the token matrix; the node-row and label buffers at their
    blocks on the moved part (anything past it); the result buffer at `o3 c t`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (cfg0.win 1).fill (cfg0.grid.coords t) (fun _ => Classical.arbitrary _) (iblk m c 1 t)
    | ⟨2, _⟩ => (cfg0.win 2).fill (cfg0.grid.coords t) (fun _ => Classical.arbitrary _) (iblk m c 2 t)
    | ⟨3, _⟩ => o3 c t
  Φ _ := Pipeline.ΦA spec0 c
  q _ := fullShare
  owed _ := 0

theorem A_eq (c : Dev nD) (w : Fin cfg0.W) : (dats m o3 0 c).A w = V m c (Pipeline.arrRef spec0 w) := by
  dsimp only [dats]

theorem after0 (c : Dev nD) (t : Fin cfg0.N) : (dats m o3 0 c).after 0 t = iblk m c 0 t := by dsimp only [dats]
theorem after1 (c : Dev nD) (t : Fin cfg0.N) : (dats m o3 0 c).after 1 t
    = (cfg0.win 1).fill (cfg0.grid.coords t) (fun _ => Classical.arbitrary _) (iblk m c 1 t) := by dsimp only [dats]
theorem after2 (c : Dev nD) (t : Fin cfg0.N) : (dats m o3 0 c).after 2 t
    = (cfg0.win 2).fill (cfg0.grid.coords t) (fun _ => Classical.arbitrary _) (iblk m c 2 t) := by dsimp only [dats]
theorem after3 (c : Dev nD) (t : Fin cfg0.N) : (dats m o3 0 c).after 3 t = o3 c t := by dsimp only [dats]

/-- The token buffer holds the token matrix at every point. -/
theorem before0 (c : Dev nD) (t : Fin cfg0.N) (d) : (dats m o3 0 c).before 0 t d = iblk m c 0 t :=
  before0_0_of m (dats m o3 0 c) (A_eq m o3 c 0) (after0 m o3 c) t d
/-- The node-row buffer, fetched at every point, holds its block on the moved part and what it held elsewhere. -/
theorem before1 (c : Dev nD) (t : Fin cfg0.N) (d) :
    (dats m o3 0 c).before 1 t d = (cfg0.win 1).fill (cfg0.grid.coords t) d (iblk m c 1 t) :=
  ((dats m o3 0 c).before_fetched 1 t (fetch0_1 t) d).trans (by unfold Dat.fetched Dat.blockOf iblk; rw [A_eq])
/-- The label buffer likewise. -/
theorem before2 (c : Dev nD) (t : Fin cfg0.N) (d) :
    (dats m o3 0 c).before 2 t d = (cfg0.win 2).fill (cfg0.grid.coords t) d (iblk m c 2 t) :=
  ((dats m o3 0 c).before_fetched 2 t (fetch0_2 t) d).trans (by unfold Dat.fetched Dat.blockOf iblk; rw [A_eq])
/-- The result buffer, written back at every point, comes to the body at contents nothing names. -/
theorem before3 (c : Dev nD) (t : Fin cfg0.N) (d) : (dats m o3 0 c).before 3 t d = d :=
  (dats m o3 0 c).before_out_reset 3 rfl t (by
    by_cases h0 : t.val = 0
    · exact .inl h0
    · exact .inr ⟨h0, flush0_3 _⟩) d

/-! ## The body obligation that names the result -/

/-- What the result buffer holds after the body at point `t` if the two cut input buffers held `d1`, `d2` past
    their moved parts. -/
def outAt (c : Dev nD) (t : Fin cfg0.N) (d1 : S10240x128.Idx → Elt F .f32) (d2 : S1x10240.Idx → Elt F .i32) : S100x10240.Idx → Elt F .f32 :=
  outBlock (iblk m c 0 t) ((cfg0.win 1).fill (cfg0.grid.coords t) d1 (iblk m c 1 t))
    ((cfg0.win 2).fill (cfg0.grid.coords t) d2 (iblk m c 2 t))

def bodyPre (c : Dev nD) (t : Fin cfg0.N) : sProp 𝕄 :=
  iprop((dats m o3 0 c).Φ t.castSucc ∗ (dats m o3 0 c).owesAt () t.castSucc
    ∗ (∃ d, owns (c : Thread nD τ) (st0_0 t) fullShare ((dats m o3 0 c).before 0 t d))
    ∗ (∃ d, owns (c : Thread nD τ) (st0_1 t) fullShare ((dats m o3 0 c).before 1 t d))
    ∗ (∃ d, owns (c : Thread nD τ) (st0_2 t) fullShare ((dats m o3 0 c).before 2 t d))
    ∗ (∃ d, owns (c : Thread nD τ) (st0_3 t) fullShare ((dats m o3 0 c).before 3 t d)))

def bodyPost (c : Dev nD) (t : Fin cfg0.N) : sProp 𝕄 :=
  iprop((dats m o3 0 c).Φ t.succ ∗ (dats m o3 0 c).owesAt () t.succ
    ∗ owns (c : Thread nD τ) (st0_0 t) fullShare ((dats m o3 0 c).after 0 t)
    ∗ (∃ d, owns (c : Thread nD τ) (st0_1 t) fullShare ((cfg0.win 1).fill (cfg0.grid.coords t) d ((cfg0.win 1).cut (cfg0.grid.coords t) ((dats m o3 0 c).after 1 t))))
    ∗ (∃ d, owns (c : Thread nD τ) (st0_2 t) fullShare ((cfg0.win 2).fill (cfg0.grid.coords t) d ((cfg0.win 2).cut (cfg0.grid.coords t) ((dats m o3 0 c).after 2 t))))
    ∗ (∃ d, owns (c : Thread nD τ) (st0_3 t) fullShare ((cfg0.win 3).fill (cfg0.grid.coords t) d ((cfg0.win 3).cut (cfg0.grid.coords t) ((dats m o3 0 c).after 3 t)))))

/-- The body at any point, given that the moved part of what it stores is the moved part of `o3 c t`
    whatever lay past the inputs' moved parts. -/
theorem sound_body (c : Dev nD) (t : Fin cfg0.N)
    (hO : ∀ d1 d2, (cfg0.win 3).cut (cfg0.grid.coords t) (outAt m c t d1 d2) = (cfg0.win 3).cut (cfg0.grid.coords t) (o3 c t)) :
    bodyPre m o3 c t ⊢ wp frame (wpE (defs₀ (F := F)) Variants.none c none) Set.univ (bodyAt0 t) (fun _ => bodyPost m o3 c t) := by
  unfold bodyPre bodyPost bodyAt0
  simp only [before0, before1, before2, before3]
  rw [show (dats m o3 0 c).Φ t.succ = (dats m o3 0 c).Φ t.castSucc from rfl,
    show (dats m o3 0 c).owesAt () t.succ = (dats m o3 0 c).owesAt () t.castSucc from rfl,
    after0, after1, after2, after3, Window.cut_fill, Window.cut_fill]
  iintro ⟨HΦ, Ho, ⟨%d0, H0⟩, ⟨%d1, H1⟩, ⟨%d2, H2⟩, ⟨%d3, H3⟩⟩
  iapply (sound_kernel c Set.univ _ _ _ _ _ _ _ _ _ (iblk m c 0 t)
    ((cfg0.win 1).fill (cfg0.grid.coords t) d1 (iblk m c 1 t)) ((cfg0.win 2).fill (cfg0.grid.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexists d1; iexact H1
  isplitl [H2]; · iexists d2; iexact H2
  iexists outAt m c t d1 d2
  rw [← hO d1 d2, Window.fill_cut]
  iexact H3

theorem body_obligation (c : Dev nD)
    (hO : ∀ t d1 d2, (cfg0.win 3).cut (cfg0.grid.coords t) (outAt m c t d1 d2) = (cfg0.win 3).cut (cfg0.grid.coords t) (o3 c t)) :
    BodyObligationLoose (dats (F := F) m o3 0 c) (defs₀ (F := F)) Variants.none () Set.univ := fun t => by
  rw [bigSep_W0, bigSep_W0]
  exact sound_body m o3 c t (hO t)

end Cert.KernelIdeal.Hand

end
-- ==== Proof.LibDotNT.lean ====
/-
  A product of an M×K matrix with the TRANSPOSE of an N×K matrix, read at an entry.

  With the contraction taken over the last axis of both operands, entry (p, q) of the result is the sum over k of
  l (p, k) · r (q, k). Over the extended reals, with exact operations, this holds of the matrix unit's product into a
  zero accumulator and of the host's general dot product alike, for all extents M, K, N: there is no rounding and no
  order of summation left in either.
-/
import Idealize.ShloMosaic.PureOps.Ideal.Laws
import Idealize.ShloMosaic.Lib.ValueIdx

open scoped BigOperators

noncomputable section

namespace Cert.Lib.DotNT

open Idealize.ShloMosaic Idealize.ShloMosaic.ValueIdx

variable {M K N : Nat}

/-- The left operand is read at the result's row … -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- … and at the contraction position; -/
theorem lhs_col (j : (⟨2, ![M, N]⟩ : Shape).Idx) (k : (DotDims.transposedRhs M K N).contr.Idx) :
    ((DotDims.transposedRhs M K N).lhsIdx j k 1).val = (k ⟨0, Nat.one_pos⟩).val :=
  (DotDims.transposedRhs M K N).lhsIdx_val_of_single rfl j k

/-- the right operand at the result's column, as ITS row, … -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- … and at the contraction position. -/
theorem rhs_col (j : (⟨2, ![M, N]⟩ : Shape).Idx) (k : (DotDims.transposedRhs M K N).contr.Idx) :
    ((DotDims.transposedRhs M K N).rhsIdx j k 1).val = (k ⟨0, Nat.one_pos⟩).val :=
  (DotDims.transposedRhs M K N).rhsIdx_val_of_single rfl j k

/-- The sum over the one-axis contraction shape, as a sum over `Fin K` of the operands at (p, k) and (q, k). -/
theorem sum_contr {φ₁ φ₂ : FTy} (l : FVec Ideal (⟨2, ![M, K]⟩ : Shape) φ₁) (r : FVec Ideal (⟨2, ![N, K]⟩ : Shape) φ₂)
    (p : Fin M) (q : Fin N) :
    (∑ k : (DotDims.transposedRhs M K N).contr.Idx,
        l ((DotDims.transposedRhs M K N).lhsIdx (ix2 p q) k) * r ((DotDims.transposedRhs M K N).rhsIdx (ix2 p q) k))
      = ∑ k : Fin K, l (ix2 p k) * r (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs_row _ _
      | ⟨1, _⟩ => exact (lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs_row _ _
      | ⟨1, _⟩ => exact (rhs_col _ _).trans hk)
  rw [el, er]

/-- The matrix unit's product into a zero accumulator, at entry (p, q). -/
theorem matmul_zero_apply {φ₁ φ₂ : FTy} (prec : Option ContractPrecision)
    (l : FVec Ideal (⟨2, ![M, K]⟩ : Shape) φ₁) (r : FVec Ideal (⟨2, ![N, K]⟩ : Shape) φ₂) (p : Fin M) (q : Fin N) :
    FloatOps.matmul (DotDims.transposedRhs M K N) prec l r (constant (⟨2, ![M, N]⟩ : Shape) .f32 0x00000000#32) (ix2 p q)
      = ∑ k : Fin K, l (ix2 p k) * r (ix2 q k) :=
  (Ideal.matmul_constant_zero_apply _ prec l r (ix2 p q)).trans (sum_contr l r p q)

/-- The host's general dot product, at entry (p, q). -/
theorem dotGeneral_apply {φ₁ φ₂ : FTy} (prec : Option ContractPrecision) (sched : HostSchedule)
    (l : FVec Ideal (⟨2, ![M, K]⟩ : Shape) φ₁) (r : FVec Ideal (⟨2, ![N, K]⟩ : Shape) φ₂) (p : Fin M) (q : Fin N) :
    FloatOps.dotGeneral (DotDims.transposedRhs M K N) prec sched l r (ix2 p q) = ∑ k : Fin K, l (ix2 p k) * r (ix2 q k) :=
  (Ideal.dotGeneral_apply _ prec sched l r (ix2 p q)).trans (sum_contr l r p q)

end Cert.Lib.DotNT

end
-- ==== Proof.KISpec.lean ====
/-
  The cross adjacency of prompt tokens and graph nodes, as plain functions over the extended reals.

  A token row r (of 100 = 10 groups × 10 tokens) and a node n (of 500000) have similarity
  s = Σ_k tok (r, k) · x (n, k) over the 128 features.  With σ the logistic function, the adjacency entry is σ s
  when σ s ≥ 0.1 and node n's label equals the token's group, and 0 otherwise.  The group of row r is r div 10.
  The same array viewed [10, 10, 500000] has entry (p, t, n) equal to the flat entry (10·p + t, n), whose group is p.
-/
import Idealize.ShloMosaic.PureOps.Ideal.Laws
import Idealize.ShloMosaic.Lib.ValueIdx

open scoped BigOperators

noncomputable section

namespace Cert.CrossSpec

open Idealize.ShloMosaic Idealize.ShloMosaic.ValueIdx

/-- One entry: `s` the similarity, `g` the token's group, `lab` the node's label. -/
def entry (s : EReal) (g lab : BitVec 32) : EReal :=
  Scalar.select (IntOp.andi (Ideal.cmp .oge (Ideal.logistic s) (Ideal.ofBits .f32 0x3DCCCCCD#32)) (IntOp.cmpi .eq g lab))
    (Ideal.logistic s) (Ideal.ofBits .f32 0x00000000#32)

/-- The flat adjacency at token row `r` and node `n`. -/
def crossAt (tok : (⟨2, ![100, 128]⟩ : Shape).Idx → EReal) (x : (⟨2, ![500000, 128]⟩ : Shape).Idx → EReal)
    (lab : (⟨2, ![1, 500000]⟩ : Shape).Idx → BitVec 32) (r : Fin 100) (n : Fin 500000) : EReal :=
  entry (∑ k : Fin 128, tok (ix2 r k) * x (ix2 n k)) (BitVec.ofNat 32 (r.val / 10)) (lab (ix2 (0 : Fin 1) n))

/-- The flat adjacency as one [100, 500000] array. -/
def crossFlat (tok : (⟨2, ![100, 128]⟩ : Shape).Idx → EReal) (x : (⟨2, ![500000, 128]⟩ : Shape).Idx → EReal)
    (lab : (⟨2, ![1, 500000]⟩ : Shape).Idx → BitVec 32) : (⟨2, ![100, 500000]⟩ : Shape).Idx → EReal :=
  fun i => crossAt tok x lab (i 0) (i 1)

/-- The adjacency at group `p`, token `t` of the group, node `n`, over the arguments. -/
def crossAdjAt (tokens : (⟨3, ![10, 10, 128]⟩ : Shape).Idx → EReal) (x : (⟨2, ![500000, 128]⟩ : Shape).Idx → EReal)
    (labels : (⟨1, ![500000]⟩ : Shape).Idx → BitVec 32) (p t : Fin 10) (n : Fin 500000) : EReal :=
  entry (∑ k : Fin 128, tokens (ix3 p t k) * x (ix2 n k)) (BitVec.ofNat 32 p.val) (labels (ix1 n))

/-- The adjacency as a [10, 10, 500000] array over the arguments. -/
def crossAdj (tokens : (⟨3, ![10, 10, 128]⟩ : Shape).Idx → EReal) (x : (⟨2, ![500000, 128]⟩ : Shape).Idx → EReal)
    (labels : (⟨1, ![500000]⟩ : Shape).Idx → BitVec 32) : (⟨3, ![10, 10, 500000]⟩ : Shape).Idx → EReal :=
  fun i => crossAdjAt tokens x labels (i 0) (i 1) (i 2)

end Cert.CrossSpec

end
-- ==== Proof.KIPay.lean ====
/-
  The body's arithmetic read at one entry, over the extended reals.

  Entry (r, j) of the block the body stores is decided by three things only: the similarity
  s = Σ_k tok (r, k) · rows (j, k) of token row r with node row j, the group of token row r (r div 10), and the
  label of node j.  With σ the logistic function the entry is σ s when σ s ≥ 0.1 and the label is the row's group,
  and 0 otherwise.  In particular column j of the block depends on row j of the node block and entry j of the label
  block alone.
-/
import proofs.«141159_j49478023250329_2_alg».proof.Proof.Gen.KernelIdeal.Skeleton
import proofs.«141159_j49478023250329_2_alg».proof.Proof.LibDotNT
import proofs.«141159_j49478023250329_2_alg».proof.Proof.KISpec
import Idealize.ShloMosaic.Lib.Pipeline.Value
import Idealize.ShloMosaic.Lib.ValueIdx
import Idealize.ShloMosaic.PureOps.Ideal.Laws

open scoped BigOperators

noncomputable section

namespace Cert.KernelIdeal.Hand

open Cert.KernelIdeal Cert.KernelIdeal.Gen
open Idealize.ShloMosaic Idealize.ShloMosaic.ValueIdx Cert.CrossSpec

section AnyFloat
variable {F : FTy → Type} [FloatOps F]

/-- The similarity matrix of a token block and a node-row block: their product over the shared last axis. -/
def simMat (v0 : Vec F S100x128 .bf16) (v2 : Vec F S10240x128 .f32) : FVec F S100x10240 .f32 :=
  matmul dot_S100x128_S10240x128_S100x10240_1_1_0_0_n_n none (shapeCast S100x128 v0 shapeCasts_S100x128_S100x128)
    (truncf .bf16 v2 bitsLt_bf16_f32) (constant S100x10240 .f32 0x00000000#32)

/-- The group of each token row as the body computes it: the row's number divided by 10, rounding down
    (a truncating division corrected where the signs differ and the remainder is not zero). -/
def rowGroups : IVec S100x1 32 :=
  select (andi (cmpi .ne (subi (extui 32 (cmpi .sgt (iota .tc S100x1 32 [0] iota_S100x1_d0_w32) (broadcast S100x1 0#32)) natLt_1_32)
        (extui 32 (cmpi .slt (iota .tc S100x1 32 [0] iota_S100x1_d0_w32) (broadcast S100x1 0#32)) natLt_1_32))
      (broadcast S100x1 (Scalar.subi (Scalar.extui (Scalar.cmpi .sgt 10#32 0#32)) (Scalar.extui (Scalar.cmpi .slt 10#32 0#32)))))
    (cmpi .ne (remsi (iota .tc S100x1 32 [0] iota_S100x1_d0_w32) (broadcast S100x1 10#32)) (broadcast S100x1 0#32)))
    (subi (divsi (iota .tc S100x1 32 [0] iota_S100x1_d0_w32) (broadcast S100x1 10#32)) (broadcast S100x1 1#32))
    (divsi (iota .tc S100x1 32 [0] iota_S100x1_d0_w32) (broadcast S100x1 10#32))

/-- The body's arithmetic, entry by entry, over the similarity matrix, the row groups and the labels. -/
theorem pay_eq (v0 : Vec F S100x128 .bf16) (v2 : Vec F S10240x128 .f32) (v6 : Vec F S1x10240 .i32) :
    k0_pay1 (F := F) v0 v2 v6 = fun i =>
      Scalar.select (IntOp.andi (FloatOps.cmpf .oge (FloatOps.logistic (simMat v0 v2 i)) (Scalar.ofBits .f32 0x3DCCCCCD#32))
          (IntOp.cmpi .eq (broadcastTo S100x10240 rowGroups broadcasts_S100x1_S100x10240 i)
            (broadcastTo S100x10240 (shapeCast S1x10240 v6 shapeCasts_S1x10240_S1x10240) broadcasts_S1x10240_S100x10240 i)))
        (FloatOps.logistic (simMat v0 v2 i)) (Scalar.ofBits .f32 0x00000000#32) := rfl

end AnyFloat

/-- The group word of a row number. -/
def groupWord (x : BitVec 32) : BitVec 32 :=
  Scalar.select (IntOp.andi (IntOp.cmpi .ne (IntOp.subi ((IntOp.cmpi .sgt x 0#32).setWidth 32) ((IntOp.cmpi .slt x 0#32).setWidth 32))
      (Scalar.subi (Scalar.extui (Scalar.cmpi .sgt 10#32 0#32)) (Scalar.extui (Scalar.cmpi .slt 10#32 0#32))))
    (IntOp.cmpi .ne (IntOp.remsi .vector x 10#32) 0#32))
    (IntOp.subi (IntOp.divsi .vector x 10#32) 1#32) (IntOp.divsi .vector x 10#32)

/-- For the hundred row numbers the corrected division is the floor of the row number over 10. -/
theorem groupWord_row : ∀ r : Fin 100, groupWord (BitVec.ofNat 32 r.val) = BitVec.ofNat 32 (r.val / 10) := by
  decide +kernel

theorem rowGroups_apply (r : Fin 100) : rowGroups (ix2 r (0 : Fin 1)) = BitVec.ofNat 32 (r.val / 10) := by
  refine Eq.trans ?_ (groupWord_row r)
  have hi : iota .tc S100x1 32 [0] iota_S100x1_d0_w32 (ix2 r (0 : Fin 1)) = BitVec.ofNat 32 r.val :=
    iota_single_apply .tc S100x1 32 0 iota_S100x1_d0_w32 (ix2 r (0 : Fin 1))
  unfold rowGroups groupWord
  simp only [select, andi, cmpi, subi, extui, remsi, divsi, broadcast]
  rw [hi]

/-- A [100,1] column spread over the columns reads its row. -/
theorem col_broadcast_apply {α : Type} (v : S100x1.Idx → α) (r : Fin 100) (j : Fin 10240) :
    broadcastTo S100x10240 v broadcasts_S100x1_S100x10240 (ix2 r j) = v (ix2 r (0 : Fin 1)) := by
  refine broadcastTo_apply v broadcasts_S100x1_S100x10240 (ix2 r j) (ix2 r (0 : Fin 1)) fun ax => ?_
  match ax with
  | ⟨0, _⟩ => rfl
  | ⟨1, _⟩ => rfl

/-- A [1,10240] row spread over the rows reads its column. -/
theorem row_broadcast_apply {α : Type} (v : S1x10240.Idx → α) (r : Fin 100) (j : Fin 10240) :
    broadcastTo S100x10240 v broadcasts_S1x10240_S100x10240 (ix2 r j) = v (ix2 (0 : Fin 1) j) := by
  refine broadcastTo_apply v broadcasts_S1x10240_S100x10240 (ix2 r j) (ix2 (0 : Fin 1) j) fun ax => ?_
  match ax with
  | ⟨0, _⟩ => rfl
  | ⟨1, _⟩ => rfl

/-- The similarity matrix at an entry is the sum over the 128 features. -/
theorem simMat_apply (v0 : Vec Ideal S100x128 .bf16) (v2 : Vec Ideal S10240x128 .f32) (r : Fin 100) (j : Fin 10240) :
    simMat (F := Ideal) v0 v2 (ix2 r j) = ∑ k : Fin 128, v0 (ix2 r k) * v2 (ix2 j k) := by
  unfold simMat
  rw [shapeCast_self]
  exact Cert.Lib.DotNT.matmul_zero_apply (M := 100) (K := 128) (N := 10240) none v0 v2 r j

/-- THE ENTRY: what the body stores at (r, j). -/
theorem pay_apply (v0 : Vec Ideal S100x128 .bf16) (v2 : Vec Ideal S10240x128 .f32) (v6 : Vec Ideal S1x10240 .i32)
    (r : Fin 100) (j : Fin 10240) :
    k0_pay1 (F := Ideal) v0 v2 v6 (ix2 r j)
      = entry (∑ k : Fin 128, v0 (ix2 r k) * v2 (ix2 j k)) (BitVec.ofNat 32 (r.val / 10)) (v6 (ix2 (0 : Fin 1) j)) := by
  rw [pay_eq]
  show Scalar.select (IntOp.andi (FloatOps.cmpf .oge (FloatOps.logistic (simMat v0 v2 (ix2 r j))) (Scalar.ofBits .f32 0x3DCCCCCD#32))
          (IntOp.cmpi .eq (broadcastTo S100x10240 rowGroups broadcasts_S100x1_S100x10240 (ix2 r j))
            (broadcastTo S100x10240 (shapeCast S1x10240 v6 shapeCasts_S1x10240_S1x10240) broadcasts_S1x10240_S100x10240 (ix2 r j))))
        (FloatOps.logistic (simMat v0 v2 (ix2 r j))) (Scalar.ofBits .f32 0x00000000#32) = _
  rw [simMat_apply, col_broadcast_apply, row_broadcast_apply, rowGroups_apply, shapeCast_self]
  rfl

end Cert.KernelIdeal.Hand

end
-- ==== Proof.KIValue.lean ====
/-
  What the result array of the call holds after the run, over the extended reals: the flat cross adjacency of the
  token matrix, the node features and the label row as the call finds them.

  Point t writes back columns 10240·t … of the result, as many as lie inside the array (10240, or 8480 at the last
  point).  On those columns what the body stored is the adjacency: entry (r, j) of the stored block reads token
  row r, node row 10240·t + j and label 10240·t + j, each of which the fetch did bring in, whatever the staging
  buffers held past the arrays' end.  The 49 blocks cover the 500000 columns.
-/
import proofs.«141159_j49478023250329_2_alg».proof.Proof.Gen.KernelIdeal.Launch
import proofs.«141159_j49478023250329_2_alg».proof.Proof.Gen.KernelIdeal.Skeleton
import proofs.«141159_j49478023250329_2_alg».proof.Proof.Gen.KernelIdeal.Points
import proofs.«141159_j49478023250329_2_alg».proof.Proof.Gen.KernelIdeal.Frame
import proofs.«141159_j49478023250329_2_alg».proof.Proof.KIData
import proofs.«141159_j49478023250329_2_alg».proof.Proof.KIPay
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen Cert.CrossSpec
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

theorem hz : (![0, 0] : Fin 2 → Nat) = fun _ => 0 := funext fun a => by fin_cases a <;> rfl

/-- The flat adjacency of the three arrays the call stages, as the call finds them. -/
def G (c : Dev nD) : S100x500000.Idx → EReal :=
  crossFlat (V m c main_v12) (V m c main_arg1) (V m c main_v13)

/-- What the result buffer is said to hold after point `t`: block `t` of `G` on the columns inside the array. -/
def o3 (c : Dev nD) (t : Fin cfg0.N) : S100x10240.Idx → Elt Ideal .f32 :=
  (cfg0.win 3).fill (cfg0.grid.coords t) (fun _ => (0 : EReal)) (((cfg0.win 3).blk t).view.read (Elt Ideal) (G m c))

/-- The index maps over the grid: the token window stays at block (0, 0); the node rows, the labels and the result
    move with the point. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- How much of each block lies inside its array: the three moving windows are cut alike along the node axis,
    to the end of the 500000 nodes; nothing is cut on the other axes. -/
theorem size_facts : ∀ t : Fin cfg0.N,
    win0_1.xsize (grid0.coords t) (0 : Fin 2) = win0_3.xsize (grid0.coords t) (1 : Fin 2)
    ∧ win0_1.xsize (grid0.coords t) (1 : Fin 2) = 128
    ∧ win0_2.xsize (grid0.coords t) (0 : Fin 2) = 1
    ∧ win0_2.xsize (grid0.coords t) (1 : Fin 2) = win0_3.xsize (grid0.coords t) (1 : Fin 2)
    ∧ win0_3.xsize (grid0.coords t) (0 : Fin 2) = 100
    ∧ t.val * 10240 + win0_3.xsize (grid0.coords t) (1 : Fin 2) = min (t.val * 10240 + 10240) 500000
    ∧ win0_3.xsize (grid0.coords t) (1 : Fin 2) ≤ 10240 :=
  (by decide +kernel : ∀ t : Fin grid0.N, _)

/-- A filled buffer read inside the moved part reads the fill. -/
theorem fill_moved {G' : Pipeline.Grid} (w : Pipeline.Window sig G') {α : Type} (i : G'.Coords) (d : w.block.Idx → α)
    (g : (w.xblock i).Idx → α) (x : w.block.Idx) (hm : ∀ a, (x a).val < w.xsize i a) :
    w.fill i d g x = g (fun a => ⟨(x a).val, hm a⟩) := by
  unfold Pipeline.Window.fill
  rw [dif_pos ((w.moved_iff i x).mpr hm)]

/-! ## The blocks the body loads, read at an entry -/

/-- The token block is the whole token matrix. -/
theorem tok_read (c : Dev nD) (t : Fin cfg0.N) (r : Fin 100) (k : Fin 128) :
    iblk m c 0 t (ix2 r k) = V m c main_v12 (ix2 r k) := by
  obtain ⟨e0, e1, -⟩ := idx_facts t
  show V m c main_v12 (((cfg0.win 0).blk t).view.emb (ix2 r k)) = V m c main_v12 (ix2 r k)
  refine congrArg (V m c main_v12) (funext fun a => Fin.ext ?_)
  match a with
  | ⟨0, _⟩ => show win0_0.index t (0 : Fin 2) * 100 + 1 * r.val = r.val; omega
  | ⟨1, _⟩ => show win0_0.index t (1 : Fin 2) * 128 + 1 * k.val = k.val; omega

/-- Row `y' 0` of the node block at point `t` is node row 10240·t + `y' 0`. -/
theorem rows_read (c : Dev nD) (t : Fin cfg0.N) (y' : ((cfg0.win 1).xblock (cfg0.grid.coords t)).Idx) (n : Fin 500000) (k : Fin 128)
    (hn : n.val = t.val * 10240 + (y' 0).val) (hk : k.val = (y' 1).val) :
    iblk m c 1 t y' = V m c main_arg1 (ix2 n k) := by
  obtain ⟨-, -, e2, e3, -⟩ := idx_facts t
  show V m c main_arg1 (((cfg0.win 1).blk t).view.emb y') = V m c main_arg1 (ix2 n k)
  refine congrArg (V m c main_arg1) (funext fun a => Fin.ext ?_)
  match a with
  | ⟨0, _⟩ => show win0_1.index t (0 : Fin 2) * 10240 + 1 * (y' 0).val = n.val; omega
  | ⟨1, _⟩ => show win0_1.index t (1 : Fin 2) * 128 + 1 * (y' 1).val = k.val; omega

/-- Entry `y' 1` of the label block at point `t` is label 10240·t + `y' 1`. -/
theorem lab_read (c : Dev nD) (t : Fin cfg0.N) (y' : ((cfg0.win 2).xblock (cfg0.grid.coords t)).Idx) (n : Fin 500000)
    (h0 : (y' 0).val = 0) (hn : n.val = t.val * 10240 + (y' 1).val) :
    iblk m c 2 t y' = V m c main_v13 (ix2 (0 : Fin 1) n) := by
  obtain ⟨-, -, -, -, e4, e5, -⟩ := idx_facts t
  show V m c main_v13 (((cfg0.win 2).blk t).view.emb y') = V m c main_v13 (ix2 (0 : Fin 1) n)
  refine congrArg (V m c main_v13) (funext fun a => Fin.ext ?_)
  match a with
  | ⟨0, _⟩ => show win0_2.index t (0 : Fin 2) * 1 + 1 * (y' 0).val = 0; omega
  | ⟨1, _⟩ => show win0_2.index t (1 : Fin 2) * 10240 + 1 * (y' 1).val = n.val; omega

/-! ## What the body stores, on the columns inside the array -/

/-- The arithmetic of a block's coordinates inside the array, over plain numbers. -/
theorem block_arith (tv xs y0 y1 x0 : Nat) (h0 : y0 < x0) (h1 : y1 < xs) (s4 : x0 = 100)
    (s5 : tv * 10240 + xs = min (tv * 10240 + 10240) 500000) (s6 : xs ≤ 10240) :
    y0 < 100 ∧ y1 < 10240 ∧ tv * 10240 + y1 < 500000 := by omega

/-- On the moved part the stored block is block `t` of the adjacency, whatever the two cut input buffers held
    past their moved parts. -/
theorem out_moved (c : Dev nD) (t : Fin cfg0.N) (d1 : S10240x128.Idx → Elt Ideal .f32) (d2 : S1x10240.Idx → Elt Ideal .i32) :
    (cfg0.win 3).cut (cfg0.grid.coords t) (outAt m c t d1 d2) = (cfg0.win 3).cut (cfg0.grid.coords t) (o3 m c t) := by
  obtain ⟨-, -, -, -, -, -, e6, e7⟩ := idx_facts t
  obtain ⟨s0, s1, s2, s3, s4, s5, s6⟩ := size_facts t
  unfold o3
  rw [Window.cut_fill]
  funext y
  have hr' : (y 0).val < win0_3.xsize (grid0.coords t) (0 : Fin 2) := (y 0).isLt
  have hj' : (y 1).val < win0_3.xsize (grid0.coords t) (1 : Fin 2) := (y 1).isLt
  obtain ⟨hr, hj, hn⟩ := block_arith t.val _ (y 0).val (y 1).val _ hr' hj' s4 s5 s6
  have hx : (cfg0.win 3).xinj (cfg0.grid.coords t) y = ix2 (⟨(y 0).val, hr⟩ : Fin 100) (⟨(y 1).val, hj⟩ : Fin 10240) :=
    funext fun a => Fin.ext (by match a with | ⟨0, _⟩ => rfl | ⟨1, _⟩ => rfl)
  have he : ((cfg0.win 3).blk t).view.emb y = ix2 (⟨(y 0).val, hr⟩ : Fin 100) (⟨t.val * 10240 + (y 1).val, hn⟩ : Fin 500000) :=
    funext fun a => Fin.ext (by
      match a with
      | ⟨0, _⟩ => show win0_3.index t (0 : Fin 2) * 100 + 1 * (y 0).val = (y 0).val; rw [e6, Nat.zero_mul, Nat.zero_add, Nat.one_mul]
      | ⟨1, _⟩ => show win0_3.index t (1 : Fin 2) * 10240 + 1 * (y 1).val = t.val * 10240 + (y 1).val; rw [e7, Nat.one_mul])
  show outAt m c t d1 d2 ((cfg0.win 3).xinj (cfg0.grid.coords t) y) = G m c (((cfg0.win 3).blk t).view.emb y)
  rw [hx, he]
  show _ = crossAt (V m c main_v12) (V m c main_arg1) (V m c main_v13) ⟨(y 0).val, hr⟩ ⟨t.val * 10240 + (y 1).val, hn⟩
  unfold outAt outBlock
  rw [View.canon_unit_zero hz]
  simp only [View.ld_unit_zero (S := S100x128) hz, View.ld_unit_zero (S := S10240x128) hz, View.ld_unit_zero (S := S1x10240) hz]
  rw [pay_apply]
  unfold crossAt
  have hB : ∀ k : Fin 128, (cfg0.win 1).fill (cfg0.grid.coords t) d1 (iblk m c 1 t) (ix2 (⟨(y 1).val, hj⟩ : Fin 10240) k)
      = V m c main_arg1 (ix2 (⟨t.val * 10240 + (y 1).val, hn⟩ : Fin 500000) k) := fun k => by
    rw [fill_moved (cfg0.win 1) (cfg0.grid.coords t) d1 (iblk m c 1 t) (ix2 (⟨(y 1).val, hj⟩ : Fin 10240) k) (fun a => by
      match a with
      | ⟨0, _⟩ => show (y 1).val < win0_1.xsize (grid0.coords t) (0 : Fin 2); rw [s0]; exact hj'
      | ⟨1, _⟩ => show k.val < win0_1.xsize (grid0.coords t) (1 : Fin 2); rw [s1]; exact k.isLt)]
    exact rows_read m c t _ _ k rfl rfl
  have hC : (cfg0.win 2).fill (cfg0.grid.coords t) d2 (iblk m c 2 t) (ix2 (0 : Fin 1) (⟨(y 1).val, hj⟩ : Fin 10240))
      = V m c main_v13 (ix2 (0 : Fin 1) (⟨t.val * 10240 + (y 1).val, hn⟩ : Fin 500000)) := by
    rw [fill_moved (cfg0.win 2) (cfg0.grid.coords t) d2 (iblk m c 2 t) (ix2 (0 : Fin 1) (⟨(y 1).val, hj⟩ : Fin 10240)) (fun a => by
      match a with
      | ⟨0, _⟩ => show (0 : Nat) < win0_2.xsize (grid0.coords t) (0 : Fin 2); rw [s2]; exact Nat.one_pos
      | ⟨1, _⟩ => show (y 1).val < win0_2.xsize (grid0.coords t) (1 : Fin 2); rw [s3]; exact hj')]
    exact lab_read m c t _ _ rfl rfl
  rw [Finset.sum_congr rfl (fun k _ => by rw [tok_read m c t ⟨(y 0).val, hr⟩ k, hB k]), hC]

/-! ## The run -/

set_option backward.isDefEq.respectTransparency.types false in
/-- The run with the result window's array named: every array of the call at what the proof data computes, every
    other buffer as the reshape after the call leaves it. -/
theorem run_main : θ_run defs (onTc (τ := τ) (main (F := Ideal))) (s₀ m ρ)
    (Pipeline.FramePost cfgs (dats m (o3 m)) 0 (Pipeline.afterTail₀ cfgs (dats m (o3 m)) 0 (V0 m) [hostOps1])) :=
  Pipeline.θ_run_frame_around cfgs (dats m (o3 m)) (0 : Fin 1) launch0 defs₀ Variants.none m ρ main
    (hbody := fun c => body_obligation m (o3 m) c (fun t d1 d2 => out_moved m c t d1 d2))
    (hshare := fun c => (dats m (o3 m) 0 c).share_full fun _ => rfl)
    (howed := fun _ _ => rfl) (V₀ := V0 m) (opss := [hostOps1]) (hsub := sfx_sub) (hfresh := sfx_fresh) (hkeep := sfx_keeps)
    (hmain := hmain m Variants.none) (hA := A_eq m (o3 m)) (hΦ := fun _ _ => rfl)

/-- The frame of the idealized kernel: its arguments end as they began. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m (o3 m)) (A_eq m (o3 m)) (run_main m ρ)

end Cert.KernelIdeal.Hand

end
-- ==== Proof.KIResults.lean ====
/-
  The three results of the idealized kernel program, over the extended reals, as functions of its arguments.

  The result array of the call ends at the flat adjacency: every write-back moves a block of it and the 49 blocks
  cover the 500000 columns.  The last line of the program views it [10, 10, 500000].  The stacked features and the
  inner adjacency are computed by the lines before the call and are left alone afterwards.
-/
import proofs.«141159_j49478023250329_2_alg».proof.Proof.Gen.KernelIdeal.Launch
import proofs.«141159_j49478023250329_2_alg».proof.Proof.Gen.KernelIdeal.Skeleton
import proofs.«141159_j49478023250329_2_alg».proof.Proof.Gen.KernelIdeal.Points
import proofs.«141159_j49478023250329_2_alg».proof.Proof.Gen.KernelIdeal.Frame
import proofs.«141159_j49478023250329_2_alg».proof.Proof.KIValue
import Idealize.ShloMosaic.Lib.StableHlo.Run
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen Cert.CrossSpec
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Window BodyObligation BodyObligationLoose cellOf)

variable (m : (ℓ : Loc nD τ sig) → Buf (Elt Ideal) ℓ) (ρ : Dev nD → PrngReg)

/-! ## The result array of the call -/

/-- What point `t` writes back is block `t` of the adjacency. -/
theorem flushed_eq (c : Dev nD) (t : Fin cfg0.N) :
    (dats m (o3 m) 0 c).flushed 3 t = ((cfg0.win 3).blk t).view.read (Elt Ideal) (G m c) := by
  show (cfg0.win 3).cut (grid0.coords t) ((dats m (o3 m) 0 c).after 3 t) = _
  rw [after3]
  unfold o3
  exact Window.cut_fill _ _ _ _

/-- An index is in point `t`'s block iff each coordinate is in the block's range inside the array. -/
theorem mem_blk (t : Fin cfg0.N) (i : S100x500000.Idx) :
    i ∈ ((cfg0.win 3).blk t).view.set ↔ ∀ a : Fin 2, win0_3.index t a * S100x10240.size a ≤ (i a).val
      ∧ (i a).val < win0_3.index t a * S100x10240.size a + win0_3.xsize (grid0.coords t) a := by
  show i ∈ ((View.whole main_v14).slice (win0_3.rect t)).set ↔ _
  rw [View.set_slice_whole, Rect.mem_set_unit]
  exact Iff.rfl

/-- Column n lies in the block of point n div 10240. -/
theorem cover_arith (n q xs : Nat) (hn : n < 500000) (hq : q = n / 10240)
    (s5 : q * 10240 + xs = min (q * 10240 + 10240) 500000) : q < 49 ∧ q * 10240 ≤ n ∧ n < q * 10240 + xs := by omega

theorem cover (i : S100x500000.Idx) :
    ∃ t : Fin cfg0.N, (cfg0.win 3).flush t = true ∧ i ∈ ((cfg0.win 3).blk t).view.set := by
  have hN : cfg0.N = 49 := N_0
  have hi0 : (i 0).val < 100 := (i 0).isLt
  have hi1 : (i 1).val < 500000 := (i 1).isLt
  have hq49 : (i 1).val / 10240 < cfg0.N := by rw [hN]; omega
  refine ⟨⟨(i 1).val / 10240, hq49⟩, flush0_3 _, ?_⟩
  rw [mem_blk]
  obtain ⟨-, -, -, -, -, -, e6, e7⟩ := idx_facts ⟨(i 1).val / 10240, hq49⟩
  obtain ⟨-, -, -, -, s4, s5, s6⟩ := size_facts ⟨(i 1).val / 10240, hq49⟩
  intro a
  match a with
  | ⟨0, _⟩ =>
    show win0_3.index _ (0 : Fin 2) * 100 ≤ (i 0).val ∧ (i 0).val < win0_3.index _ (0 : Fin 2) * 100 + win0_3.xsize _ (0 : Fin 2)
    rw [e6, s4, Nat.zero_mul, Nat.zero_add]
    exact ⟨Nat.zero_le _, hi0⟩
  | ⟨1, _⟩ =>
    show win0_3.index _ (1 : Fin 2) * 10240 ≤ (i 1).val ∧ (i 1).val < win0_3.index _ (1 : Fin 2) * 10240 + win0_3.xsize _ (1 : Fin 2)
    rw [e7]
    exact (cover_arith (i 1).val _ _ hi1 rfl s5).2

/-- THE RESULT ARRAY of the call after the run: the flat adjacency. -/
theorem final (c : Dev nD) : (dats m (o3 m) 0 c).arrAt 3 cfg0.N = G m c :=
  (dats m (o3 m) 0 c).arrAt_eq_of_cover 3 (G m c) (fun t _ => flushed_eq m c t) cover

/-! ## The program's results -/

/-- The stacked features: the tokens viewed [100, 128] on top of the node features. -/
def stacked (a0 : FVec Ideal S10x10x128 .f32) (a1 : FVec Ideal S500000x128 .f32) : FVec Ideal S500100x128 .f32 :=
  concatenate S500100x128 0 [⟨S100x128, (shapeCast _ a0 shapeCasts_S10x10x128_S100x128)⟩, ⟨S500000x128, a1⟩] concatenates_S100x128_S500000x128_S500100x128_d0

/-- The inner adjacency as the lines before the call compute it: within each group, the logistic function (spelt
    out) of the tokens' pairwise products, zeroed below the inner threshold. -/
def innerAdj (a0 : FVec Ideal S10x10x128 .f32) : FVec Ideal S10x10x10 .f32 :=
  select (cmpf .olt (Host.divf (broadcastInDim S10x10x10 ![] bcast_S_S10x10x10 (constant S_ .f32 0x3F800000#32)) (addf (broadcastInDim S10x10x10 ![] bcast_S_S10x10x10 (constant S_ .f32 0x3F800000#32)) (Host.exp (Host.negf (Host.dotGeneral dot_S10x10x128_S10x10x128_S10x10x10_2_2_1_1_0_0 none a0 a0))))) (broadcastInDim S10x10x10 ![] bcast_S_S10x10x10 (constant S_ .f32 0x3C23D70A#32))) (broadcastInDim S10x10x10 ![] bcast_S_S10x10x10 (id (constant S_ .f32 0x00000000#32))) (Host.divf (broadcastInDim S10x10x10 ![] bcast_S_S10x10x10 (constant S_ .f32 0x3F800000#32)) (addf (broadcastInDim S10x10x10 ![] bcast_S_S10x10x10 (constant S_ .f32 0x3F800000#32)) (Host.exp (Host.negf (Host.dotGeneral dot_S10x10x128_S10x10x128_S10x10x10_2_2_1_1_0_0 none a0 a0)))))

/-- The reshaped adjacency: the last line views the call's result array [10, 10, 500000]. -/
theorem res_v15 (c : Dev nD) :
    Pipeline.afterTail₀ cfgs (dats m (o3 m)) 0 (V0 m) [hostOps1] c main_v15
      = shapeCast S10x10x500000 (G m c) shapeCasts_S100x500000_S10x10x500000 := by
  unfold Pipeline.afterTail₀
  show StableHlo.after hostOps1 _ (Proc.devRef .tc main_v15) = _
  after_results
  exact congrArg (fun x => shapeCast S10x10x500000 x shapeCasts_S100x500000_S10x10x500000)
    ((Pipeline.withArrays_arr spec0 launch0.win.arr_inj c _ _ 3).trans (final m c))

/-- The stacked features: computed before the call, untouched after it. -/
theorem res_v11 (c : Dev nD) :
    Pipeline.afterTail₀ cfgs (dats m (o3 m)) 0 (V0 m) [hostOps1] c main_v11
      = stacked (m ((c.tc : Thread nD τ).loc main_arg0)) (m ((c.tc : Thread nD τ).loc main_arg1)) := by
  unfold Pipeline.afterTail₀
  rw [StableHlo.after_of_forall_not_mem (b := Proc.devRef .tc main_v11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_v11 (by exact (by decide : ∀ w, Pipeline.arrRef spec0 w ≠ main_v11))]
  show StableHlo.after (List.flatten [hostOps0, hostOps0_1, hostOps0_2]) (fun b => m (c, b)) (Proc.devRef .tc main_v11) = _
  simp only [hostOps0, hostOps0_1, hostOps0_2, List.flatten_cons, List.flatten_nil, List.append_nil, List.cons_append, List.nil_append]
  after_results
  rfl

/-- The inner adjacency: computed before the call, untouched after it. -/
theorem res_v9 (c : Dev nD) :
    Pipeline.afterTail₀ cfgs (dats m (o3 m)) 0 (V0 m) [hostOps1] c main_v9
      = innerAdj (m ((c.tc : Thread nD τ).loc main_arg0)) := by
  unfold Pipeline.afterTail₀
  rw [StableHlo.after_of_forall_not_mem (b := Proc.devRef .tc main_v9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_v9 (by exact (by decide : ∀ w, Pipeline.arrRef spec0 w ≠ main_v9))]
  show StableHlo.after (List.flatten [hostOps0, hostOps0_1, hostOps0_2]) (fun b => m (c, b)) (Proc.devRef .tc main_v9) = _
  simp only [hostOps0, hostOps0_1, hostOps0_2, List.flatten_cons, List.flatten_nil, List.append_nil, List.cons_append, List.nil_append]
  after_results
  rfl

/-- The token matrix the call stages: the tokens viewed [100, 128] (the change of float format is the identity). -/
theorem V_v12 (c : Dev nD) : (V m c main_v12 : S100x128.Idx → EReal)
    = (truncf .bf16 (shapeCast S100x128 (m ((c.tc : Thread nD τ).loc main_arg0)) shapeCasts_S10x10x128_S100x128) bitsLt_bf16_f32 : FVec Ideal S100x128 .bf16) := by
  show StableHlo.after (List.flatten [hostOps0, hostOps0_1, hostOps0_2]) (fun b => m (c, b)) (Proc.devRef .tc main_v12) = _
  simp only [hostOps0, hostOps0_1, hostOps0_2, List.flatten_cons, List.flatten_nil, List.append_nil, List.cons_append, List.nil_append]
  after_results
  rfl

/-- The label row the call stages: the labels viewed [1, 500000]. -/
theorem V_v13 (c : Dev nD) : (V m c main_v13 : S1x500000.Idx → BitVec 32)
    = shapeCast S1x500000 (m ((c.tc : Thread nD τ).loc main_arg2)) shapeCasts_S500000_S1x500000 := by
  show StableHlo.after (List.flatten [hostOps0, hostOps0_1, hostOps0_2]) (fun b => m (c, b)) (Proc.devRef .tc main_v13) = _
  simp only [hostOps0, hostOps0_1, hostOps0_2, List.flatten_cons, List.flatten_nil, List.append_nil, List.cons_append, List.nil_append]
  after_results
  rfl

end Cert.KernelIdeal.Hand

end
-- ==== Proof.KIBridge.lean ====
/-
  The idealized kernel program's run, with its three results named as functions of its arguments.

  The flat adjacency of the staged arrays, viewed [10, 10, 500000], is the cross adjacency of the arguments: row
  10·p + t of the staged token matrix is token (p, t), its group (10·p + t) div 10 is p, and entry (0, n) of the
  staged label row is label n.
-/
import proofs.«141159_j49478023250329_2_alg».proof.Proof.Gen.KernelIdeal.Launch
import proofs.«141159_j49478023250329_2_alg».proof.Proof.Gen.KernelIdeal.Skeleton
import proofs.«141159_j49478023250329_2_alg».proof.Proof.Gen.KernelIdeal.Points
import proofs.«141159_j49478023250329_2_alg».proof.Proof.Gen.KernelIdeal.Frame
import proofs.«141159_j49478023250329_2_alg».proof.Proof.KIResults
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen Cert.CrossSpec
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The flat adjacency of the reshaped tokens and labels, viewed by group, is the cross adjacency. -/
theorem cross_bridge (a0 : FVec Ideal S10x10x128 .f32) (a1 : FVec Ideal S500000x128 .f32) (a2 : IVec S500000 32) :
    shapeCast S10x10x500000
        (crossFlat (truncf .bf16 (shapeCast S100x128 a0 shapeCasts_S10x10x128_S100x128) bitsLt_bf16_f32 : FVec Ideal S100x128 .bf16) a1
          (shapeCast S1x500000 a2 shapeCasts_S500000_S1x500000))
        shapeCasts_S100x500000_S10x10x500000
      = crossAdj a0 a1 a2 := by
  funext i
  obtain ⟨p, t, n, rfl⟩ : ∃ (p : Fin 10) (t : Fin 10) (n : Fin 500000), i = ix3 p t n := ⟨i 0, i 1, i 2, eq_ix3 i⟩
  have hp : p.val < 10 := p.isLt
  have ht : t.val < 10 := t.isLt
  have hrow : p.val * 10 + t.val < 100 := by omega
  have hg : (p.val * 10 + t.val) / 10 = p.val := by omega
  rw [shapeCast_apply _ shapeCasts_S100x500000_S10x10x500000 (ix3 p t n) (ix2 (⟨p.val * 10 + t.val, hrow⟩ : Fin 100) n) (by
    rw [Shape.rowMajor_val_two, Shape.rowMajor_val_three]; rfl)]
  show crossAt _ _ _ (⟨p.val * 10 + t.val, hrow⟩ : Fin 100) n = crossAdjAt a0 a1 a2 p t n
  unfold crossAt crossAdjAt
  have htok : ∀ k : Fin 128,
      (truncf .bf16 (shapeCast S100x128 a0 shapeCasts_S10x10x128_S100x128) bitsLt_bf16_f32 : FVec Ideal S100x128 .bf16)
        (ix2 (⟨p.val * 10 + t.val, hrow⟩ : Fin 100) k) = a0 (ix3 p t k) := fun k =>
    shapeCast_apply a0 shapeCasts_S10x10x128_S100x128 (ix2 (⟨p.val * 10 + t.val, hrow⟩ : Fin 100) k) (ix3 p t k) (by
      rw [Shape.rowMajor_val_two, Shape.rowMajor_val_three]; rfl)
  have hlab : shapeCast S1x500000 a2 shapeCasts_S500000_S1x500000 (ix2 (0 : Fin 1) n) = a2 (ix1 n) :=
    shapeCast_apply a2 shapeCasts_S500000_S1x500000 (ix2 (0 : Fin 1) n) (ix1 n) (by
      rw [Shape.rowMajor_val_two, Shape.rowMajor_val_one]; show n.val = 0 * 500000 + n.val; omega)
  rw [Finset.sum_congr rfl (fun k _ => by rw [htok k]), hlab]
  show entry _ (BitVec.ofNat 32 ((p.val * 10 + t.val) / 10)) _ = _
  rw [hg]

variable (m : (ℓ : Loc nD τ sig) → Buf (Elt Ideal) ℓ) (ρ : Dev nD → PrngReg)

/-- The flat adjacency the call leaves, viewed by group, is the cross adjacency of the program's arguments. -/
theorem bridge (c : Dev nD) :
    shapeCast S10x10x500000 (G m c) shapeCasts_S100x500000_S10x10x500000
      = crossAdj (m ((c.tc : Thread nD τ).loc main_arg0)) (m ((c.tc : Thread nD τ).loc main_arg1)) (m ((c.tc : Thread nD τ).loc main_arg2)) := by
  unfold G
  rw [V_v12, V_v13, V_main_arg1]
  exact cross_bridge _ _ _

/-- THE RUN OF THE IDEALIZED KERNEL PROGRAM: its three results as functions of its arguments, the arguments kept. -/
theorem value_run : θ_run defs (onTc (τ := τ) (main (F := Ideal))) ⟨m, fun _ => 0, ρ⟩ (fun r => ∀ c : Dev nD,
      r.2.mem ((c.tc : Thread nD τ).loc main_v11) = stacked (m ((c.tc : Thread nD τ).loc main_arg0)) (m ((c.tc : Thread nD τ).loc main_arg1))
      ∧ r.2.mem ((c.tc : Thread nD τ).loc main_v9) = innerAdj (m ((c.tc : Thread nD τ).loc main_arg0))
      ∧ r.2.mem ((c.tc : Thread nD τ).loc main_v15) = crossAdj (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v11 (Pipeline.mem_restRefs_of main_v11 (by decide) (by decide))).trans (res_v11 m c),
     ((h c).2 main_v9 (Pipeline.mem_restRefs_of main_v9 (by decide) (by decide))).trans (res_v9 m c),
     (((h c).2 main_v15 (Pipeline.mem_restRefs_of main_v15 (by decide) (by decide))).trans (res_v15 m c)).trans (bridge m c),
     ((h c).2 main_arg0 (Pipeline.mem_restRefs_of main_arg0 (by decide) (by decide))).trans (W_main_arg0 m (dats m (o3 m)) c),
     ((h c).1 1).trans (((dats m (o3 m) 0 c).arrAt_in 1 rfl _).trans ((A_eq m (o3 m) c 1).trans (V_main_arg1 m c))),
     ((h c).2 main_arg2 (Pipeline.mem_restRefs_of main_arg2 (by decide) (by decide))).trans (W_main_arg2 m (dats m (o3 m)) c)⟩)
    (run_main m ρ)

end Cert.KernelIdeal.Hand

end
-- ==== Proof.LibRateCoding.lean ====
/-
  Rate coding of a linear layer, over arbitrary extents and on every extended real.

  A batch of B inputs of width I goes through a linear layer with N neurons (weights stored [N, I], one bias per
  neuron) and the logistic function: entry (p, q) of the firing rates is
      rate p q = logistic (Σ_k x (p, k) · W (q, k) + b q).
  A spike train of T steps is drawn against them from given thresholds u: entry (p, s, q) of the spikes is one when
  u (p, s, q) < rate p q and zero otherwise, the comparison's bit read as a number.

  Beside the two definitions this file has the three scalar facts that make two common spellings of them one function:
  the logistic function written out as 1 / (1 + exp (−z)) with the 32-bit float word of 1.0 is the logistic function,
  on every extended real; a one-bit word widened to 32 bits by zeros and then read as a signed number is the bit read
  as an unsigned number; and the 32-bit float word 0x3F800000 is the number one.
-/
import Idealize.ShloMosaic.PureOps.Ideal.Laws
import Idealize.ShloMosaic.Lib.ValueIdx

open scoped BigOperators

noncomputable section

namespace Cert.Lib.RateCoding

open Idealize.ShloMosaic Idealize.ShloMosaic.ValueIdx

variable {B I N T : Nat}

/-- The firing rate of neuron `q` on input `p`: the logistic function of the linear layer's output there. -/
def rate (x : FVec Ideal (⟨2, ![B, I]⟩ : Shape) .f32) (W : FVec Ideal (⟨2, ![N, I]⟩ : Shape) .f32)
    (b : FVec Ideal (⟨1, ![N]⟩ : Shape) .f32) (p : Fin B) (q : Fin N) : EReal :=
  Ideal.logistic ((∑ k : Fin I, x (ix2 p k) * W (ix2 q k)) + b (ix1 q))

/-- The firing rates as one [B, N] array. -/
def rates (x : FVec Ideal (⟨2, ![B, I]⟩ : Shape) .f32) (W : FVec Ideal (⟨2, ![N, I]⟩ : Shape) .f32)
    (b : FVec Ideal (⟨1, ![N]⟩ : Shape) .f32) : FVec Ideal (⟨2, ![B, N]⟩ : Shape) .f32 :=
  fun j => rate x W b (j 0) (j 1)

/-- One spike: the bit of `u < r`, read as the number zero or one. -/
def spike (u r : EReal) : EReal := FloatOps.uitofp (F := Ideal) .f32 (FloatOps.cmpf (F := Ideal) (φ := .f32) .olt u r)

/-- The spike trains as one [B, T, N] array: at step `s` neuron `q` fires on input `p` when the threshold there is
    below its rate. -/
def spikes (x : FVec Ideal (⟨2, ![B, I]⟩ : Shape) .f32) (W : FVec Ideal (⟨2, ![N, I]⟩ : Shape) .f32)
    (b : FVec Ideal (⟨1, ![N]⟩ : Shape) .f32) (u : FVec Ideal (⟨3, ![B, T, N]⟩ : Shape) .f32) :
    FVec Ideal (⟨3, ![B, T, N]⟩ : Shape) .f32 :=
  fun j => spike (u j) (rate x W b (j 0) (j 2))

theorem rates_apply (x : FVec Ideal (⟨2, ![B, I]⟩ : Shape) .f32) (W : FVec Ideal (⟨2, ![N, I]⟩ : Shape) .f32)
    (b : FVec Ideal (⟨1, ![N]⟩ : Shape) .f32) (p : Fin B) (q : Fin N) : rates x W b (ix2 p q) = rate x W b p q := rfl

theorem spikes_apply (x : FVec Ideal (⟨2, ![B, I]⟩ : Shape) .f32) (W : FVec Ideal (⟨2, ![N, I]⟩ : Shape) .f32)
    (b : FVec Ideal (⟨1, ![N]⟩ : Shape) .f32) (u : FVec Ideal (⟨3, ![B, T, N]⟩ : Shape) .f32) (p : Fin B) (s : Fin T)
    (q : Fin N) : spikes x W b u (ix3 p s q) = spike (u (ix3 p s q)) (rate x W b p q) := rfl

/-- The 32-bit float word of 1.0 is the number one. -/
theorem one_f32 : Ideal.ofBits .f32 0x3F800000#32 = 1 := by
  simp [Ideal.ofBits, Ideal.ieee, -EReal.coe_mul]; norm_num

/-- The logistic function written out with division, addition, the exponential and negation, the ones spelt as the
    float word of 1.0, is the logistic function: on every extended real, the infinities included, since the logistic
    function is DEFINED as this quotient. -/
theorem logistic_spelt (z : EReal) :
    Ideal.div (Ideal.ofBits .f32 0x3F800000#32) (Ideal.ofBits .f32 0x3F800000#32 + Ideal.exp (-z)) = Ideal.logistic z := by
  rw [one_f32]; rfl

/-- A one-bit word widened to 32 bits by zeros and read as a signed number is the bit read as an unsigned number:
    both are zero or one. -/
theorem widened_bit (w : BitVec 1) :
    FloatOps.sitofp (F := Ideal) .f32 (w.setWidth 32) = FloatOps.uitofp (F := Ideal) .f32 w := by
  by_cases h : w = 1#1
  · subst h
    show (((BitVec.setWidth 32 (1#1)).toInt : ℝ) : EReal) = (((1#1 : BitVec 1).toNat : ℝ) : EReal)
    rw [show (BitVec.setWidth 32 (1#1 : BitVec 1)).toInt = 1 from by decide, show (1#1 : BitVec 1).toNat = 1 from by decide]
    norm_num
  · rw [eq_zero_of_ne_one h]
    show (((BitVec.setWidth 32 (0#1)).toInt : ℝ) : EReal) = (((0#1 : BitVec 1).toNat : ℝ) : EReal)
    rw [show (BitVec.setWidth 32 (0#1 : BitVec 1)).toInt = 0 from by decide, show (0#1 : BitVec 1).toNat = 0 from by decide]
    norm_num

/-- So a comparison's bit, widened and read signed, is the spike. -/
theorem spike_widened (u r : EReal) :
    FloatOps.sitofp (F := Ideal) .f32 ((FloatOps.cmpf (F := Ideal) (φ := .f32) .olt u r).setWidth 32) = spike u r :=
  widened_bit _

end Cert.Lib.RateCoding

end
-- ==== Proof.RefSide.lean ====
/-
  The reference's third result, over the extended reals, is the cross adjacency of its arguments.

  The reference computes the similarity of every token (p, t) with every node n by one contraction over the 128
  features, applies the logistic function spelt out as 1 / (1 + exp (−s)), compares with 0.1, and masks by the
  equality of node n's label with the group number p.  Entry by entry this is the adjacency's entry: the spelt-out
  quotient is the logistic function on every extended real, and equality of two words does not depend on their order.
-/
import proofs.«141159_j49478023250329_2_alg».proof.Proof.Gen.ReferenceIdeal.Read
import proofs.«141159_j49478023250329_2_alg».proof.Proof.KISpec
import proofs.«141159_j49478023250329_2_alg».proof.Proof.LibRateCoding

open scoped BigOperators

noncomputable section

namespace Cert.ReferenceIdeal.RefValue

open Cert.ReferenceIdeal Cert.ReferenceIdeal.Gen Cert.ReferenceIdeal.Read Cert.CrossSpec
open Idealize.ShloMosaic Idealize.ShloMosaic.ValueIdx

/-- Equality of two words, as a bit, does not depend on their order. -/
theorem cmpi_eq_comm (a b : BitVec 32) : IntOp.cmpi .eq a b = IntOp.cmpi .eq b a := by
  show BitVec.ofBool (a == b) = BitVec.ofBool (b == a)
  rw [BEq.comm]

/-- THE REFERENCE'S ADJACENCY is the cross adjacency of its three arguments. -/
theorem ref_cross (x0 : S10x10x128.Idx → EReal) (x1 : S500000x128.Idx → EReal) (x2 : S500000.Idx → BitVec 32) :
    val_main_v28 (F := Ideal) x0 x1 x2 = crossAdj x0 x1 x2 := by
  funext i
  obtain ⟨p, t, n, rfl⟩ : ∃ (p : Fin 10) (t : Fin 10) (n : Fin 500000), i = ix3 p t n := ⟨i 0, i 1, i 2, eq_ix3 i⟩
  have hl : ∀ k : Fin 128, lidx_main_v10 (ix3 p t n) k = ix3 p t k := fun k => funext fun a => Fin.ext (by
    match a with | ⟨0, _⟩ => rfl | ⟨1, _⟩ => rfl | ⟨2, _⟩ => rfl)
  have hr : ∀ k : Fin 128, ridx_main_v10 (ix3 p t n) k = ix2 n k := fun k => funext fun a => Fin.ext (by
    match a with | ⟨0, _⟩ => rfl | ⟨1, _⟩ => rfl)
  have hx2 : idx_main_v17 (idx_main_v20 (idx_main_v25 (idx_main_v26 (ix3 p t n)))) = ix1 n := funext fun a => Fin.ext (by
    match a with | ⟨0, _⟩ => rfl)
  rw [val_main_v28_apply, val_main_v27_apply, val_main_v24_apply, val_main_v26_apply, val_main_v25_apply, val_main_v22_apply,
    val_main_v20_apply, val_main_v17_apply, val_main_v21_apply, val_main_v19_apply, val_main_v18_apply, val_main_v23_apply,
    val_main_cst_5_apply, val_main_call1_v1_apply, val_main_call1_v0_apply, val_main_cst_6_apply, val_main_v16_apply,
    val_main_v15_apply, val_main_cst_4_apply, val_main_v14_apply, val_main_v13_apply, val_main_cst_3_apply, val_main_v12_apply,
    val_main_v11_apply, val_main_v10_apply, hx2]
  simp only [hl, hr]
  have hs := Cert.Lib.RateCoding.logistic_spelt (∑ k : Fin 128, x0 (ix3 p t k) * x1 (ix2 n k))
  simp only [Ideal.hostDivf_def, Ideal.addf_def, Ideal.hostUnary_exp_def, Ideal.hostNegf_def, Ideal.negf_def, Ideal.ofBits_def,
    Ideal.cmpf_def]
  rw [hs, cmpi_eq_comm]
  rfl

end Cert.ReferenceIdeal.RefValue

end
-- ==== Proof.lean ====
/-
  A prompt graph's cross adjacency: kernel against reference.

  Both programs take prompt tokens [10, 10, 128] (10 groups of 10 tokens), node features [500000, 128] and a label
  per node, and return three arrays: the tokens stacked on the node features, the adjacency among the tokens of
  each group, and the cross adjacency between tokens and nodes.  The first two are computed by the same lines in
  both programs.  The cross adjacency at (p, t, n) is σ s when σ s ≥ 0.1 and node n's label is p, and 0 otherwise,
  with s = Σ_k tokens (p, t, k) · x (n, k) and σ the logistic function.

  The kernel computes it in 49 blocks of 10240 nodes on the flattened [100, 128] token matrix: one product of the
  token matrix with the transposed node block, the logistic function, the threshold, and a mask comparing the
  node's label with the token row's group (row div 10); the last block hangs over the end of the arrays by 1760
  nodes, and what is computed from the words past the end is never written back.  The reference does the same
  with one contraction over the whole arrays, the logistic function spelt out as 1 / (1 + exp (−s)), and a mask
  comparing the label with the group number.  Over the extended reals the two agree entry by entry, for all
  inputs: a sum has no order, a change of float format is the identity, the spelt-out quotient is the logistic
  function on every extended real, and (10·p + t) div 10 = p.  No finiteness of the inputs is used.

  The frames: each program runs to the end without a fault and leaves its arguments as they were; for the
  word-level kernel nothing is said of what the result buffers hold.  The idealization rewrote nothing.
-/
import proofs.«141159_j49478023250329_2_alg».proof.Defs
import proofs.«141159_j49478023250329_2_alg».proof.Proof.Gen.Kernel
import proofs.«141159_j49478023250329_2_alg».proof.Proof.Gen.KernelIdeal
import proofs.«141159_j49478023250329_2_alg».proof.Proof.Gen.ReferenceIdeal
import proofs.«141159_j49478023250329_2_alg».proof.Proof.Gen.Pre_finite_inputs
import proofs.«141159_j49478023250329_2_alg».proof.Proof.KFrame
import proofs.«141159_j49478023250329_2_alg».proof.Proof.KIBridge
import proofs.«141159_j49478023250329_2_alg».proof.Proof.RefSide
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Hand.frame m ρ

/-- So does the idealized one. -/
theorem frame_ki : Cert.frame_KernelIdeal := fun m ρ _ => Cert.KernelIdeal.Hand.frame m ρ

/-- The reference is host lines only: its run, with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote nothing. -/
theorem preserves : Cert.preserves_Kernel_KernelIdeal := trivial

/-- Both idealized programs end with the stacked features, the inner adjacency and the cross adjacency of the
    arguments. -/
theorem algebraic : Cert.algebraic_KernelIdeal_ReferenceIdeal := by
  intro m ρ m' ρ' _ hagree
  refine ⟨fun c => Cert.KernelIdeal.Hand.stacked (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.KernelIdeal.Hand.innerAdj (m ((c.tc : Thread Cert.KernelIdeal.nD Cert.KernelIdeal.τ).loc Cert.KernelIdeal.main_arg0)),
    fun c => Cert.CrossSpec.crossAdj (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    Cert.KernelIdeal.Hand.value_run m ρ, ?_⟩
  refine (θ_run Cert.ReferenceIdeal.defs _ _).mono (fun _ h c => ⟨?_, ?_, ?_, (h c).2.2.2⟩)
    (Cert.ReferenceIdeal.Value.run (F := Ideal) m' ρ')
  · rw [(h c).1, (hagree c).1, (hagree c).2.1]; rfl
  · rw [(h c).2.1, (hagree c).1]; rfl
  · rw [(h c).2.2.1, Cert.ReferenceIdeal.Read.val_main_v28_eq, Cert.ReferenceIdeal.RefValue.ref_cross, (hagree c).1,
      (hagree c).2.1, (hagree c).2.2]

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
